-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S16x8x512x512 : Shape := ⟨4, ![16, 8, 512, 512]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S16x8x512x512 : S_.BroadcastsInDim S16x8x512x512 (![] : Fin 0 → Fin S16x8x512x512.rank)
  reducesTo_S16x8x512x512_S_d0_1_2_3 : S16x8x512x512.ReducesTo [0, 1, 2, 3] S_

variable [Facts]

def fn {F : FTy → Type} [FloatOps F] (main_arg0 : FVec F S8x16x512x512 .f32) (main_arg1 : FVec F S16x8x512x512 .f32) (main_arg2 : IVec S16x8x512x512 32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S16x8x512x512 .f32 := Host.absf main_arg1
  let main_cst_0 : FVec F S_ .f32 := constant S_ .f32 0x7F800000#32
  let main_v5 : FVec F S16x8x512x512 .f32 := broadcastInDim S16x8x512x512 ![] bcast_S_S16x8x512x512 main_cst_0
  let main_v6 : IVec S16x8x512x512 1 := cmpf .olt main_v4 main_v5
  let main_c_1 : IVec S_ 1 := constantI S_ 1 1#1
  let main_v7 : IVec S_ 1 := (fun x v => Host.reduce IntOp.andi x v reducesTo_S16x8x512x512_S_d0_1_2_3 h_S_) main_v6 main_c_1
  let main_v8 : IVec S_ 1 := andi main_v3 main_v7
  let main_c_2 : IVec S_ 32 := constantI S_ 32 0#32
  let main_v9 : IVec S16x8x512x512 32 := broadcastInDim S16x8x512x512 ![] bcast_S_S16x8x512x512 main_c_2
  let main_v10 : IVec S16x8x512x512 1 := cmpi .sge main_arg2 main_v9
  let main_c_3 : IVec S_ 32 := constantI S_ 32 1#32
  let main_v11 : IVec S16x8x512x512 32 := broadcastInDim S16x8x512x512 ![] bcast_S_S16x8x512x512 main_c_3
  let main_v12 : IVec S16x8x512x512 1 := cmpi .sle main_arg2 main_v11
  let main_v13 : IVec S16x8x512x512 1 := andi main_v10 main_v12
  let main_c_4 : IVec S_ 1 := constantI S_ 1 1#1
  let main_v14 : IVec S_ 1 := (fun x v => Host.reduce IntOp.andi x v reducesTo_S16x8x512x512_S_d0_1_2_3 h_S_) main_v13 main_c_4
  let main_v15 : IVec S_ 1 := andi main_v8 main_v14
  main_v15
-- ==== Kernel.lean ====
abbrev S8x16x512x512 : Shape := ⟨4, ![8, 16, 512, 512]⟩
abbrev S16x8x512x512 : Shape := ⟨4, ![16, 8, 512, 512]⟩
abbrev S16x1x1 : Shape := ⟨3, ![16, 1, 1]⟩
abbrev S1x1x512x512 : Shape := ⟨4, ![1, 1, 512, 512]⟩
abbrev S1x1x1 : Shape := ⟨3, ![1, 1, 1]⟩
abbrev S1x1 : Shape := ⟨2, ![1, 1]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S8x16x512x512, .f32⟩
  | .hbm, ⟨1, _⟩ => ⟨S16x8x512x512, .f32⟩
  | .hbm, ⟨2, _⟩ => ⟨S16x8x512x512, .i32⟩
  | .hbm, ⟨3, _⟩ => ⟨S16x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .i32⟩
  | .local _ .vmem, ⟨5, _⟩ => ⟨S1x1x512x512, .i32⟩
  | .local _ .vmem, ⟨6, _⟩ => ⟨S1x1x1, .f32⟩
  | .local _ .vmem, ⟨7, _⟩ => ⟨S1x1x1, .f32⟩
  | .local _ .vmem, ⟨8, _⟩ => ⟨S1x1, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v167 : BitVec 1 := Scalar.cmpi .eq arg1 c7_i32
  let v168 : BitVec 32 := Scalar.extui v167
  let c0_i32_65 : BitVec 32 := 0#32
  let v169 : BitVec 1 := Scalar.cmpi .ne v168 c0_i32_65
  v169

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  natLt_1_32 : 1 < 32
  iota_S512x512_d0_w32 : S512x512.Iotas .tc 32 [0]
  iota_S512x512_d1_w32 : S512x512.Iotas .tc 32 [1]
  rotates_S512x512_d0 : S512x512.Rotates 0 none
  rotates_S512x512_d1 : S512x512.Rotates 1 none
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S16x1x1_S_d0_1_2 : S16x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S8x16x512x512.size a
  hwx0_0 : ∀ i : grid0.Coords, EltTy.bits .f32 = 32 ∨ (Rect.block (s := S8x16x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x8x512x512.size a
  hwx0_1 : ∀ i : grid0.Coords, EltTy.bits .f32 = 32 ∨ (Rect.block (s := S16x8x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S16x8x512x512.size a
  hwx0_2 : ∀ i : grid0.Coords, EltTy.bits .i32 = 32 ∨ (Rect.block (s := S16x8x512x512) S1x1x512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x16x512x512 : Shape := ⟨4, ![8, 16, 512, 512]⟩
abbrev S16x8x512x512 : Shape := ⟨4, ![16, 8, 512, 512]⟩
abbrev S_ : Shape := ⟨0, ![]⟩
abbrev S16x8x514x514 : Shape := ⟨4, ![16, 8, 514, 514]⟩
abbrev S512 : Shape := ⟨1, ![512]⟩
abbrev S512x1 : Shape := ⟨2, ![512, 1]⟩
abbrev S1x512 : Shape := ⟨2, ![1, 512]⟩
abbrev S512x512 : Shape := ⟨2, ![512, 512]⟩

abbrev nBuf : Space → Nat
  | .hbm => 343
  | .vmem => 0
  | .smem => 0
  | _ => 0

abbrev hbmTy0_0 (i : Nat) : BufTy := match i % 128 with
  | 0 => ⟨S8x16x512x512, .f32⟩
  | 1 => ⟨S16x8x512x512, .f32⟩
  | 2 => ⟨S16x8x512x512, .i32⟩
  | 3 => ⟨S16x8x512x512, .f32⟩
  | 4 => ⟨S16x8x512x512, .f32⟩
  | 5 => ⟨S_, .f32⟩
  | 6 => ⟨S16x8x512x512, .f32⟩
  | 7 => ⟨S_, .f32⟩
  | 8 => ⟨S16x8x512x512, .f32⟩
  | 9 => ⟨S16x8x512x512, .i1⟩
  | 10 => ⟨S16x8x512x512, .f32⟩
  | 11 => ⟨S_, .f32⟩
  | 12 => ⟨S16x8x512x512, .f32⟩
  | 13 => ⟨S16x8x512x512, .f32⟩
  | 14 => ⟨S16x8x512x512, .f32⟩
  | 15 => ⟨S_, .f32⟩
  | 16 => ⟨S16x8x512x512, .f32⟩
  | 17 => ⟨S16x8x512x512, .i1⟩
  | 18 => ⟨S16x8x512x512, .f32⟩
  | 19 => ⟨S_, .f32⟩
  | 20 => ⟨S16x8x512x512, .f32⟩
  | 21 => ⟨S16x8x512x512, .f32⟩
  | 22 => ⟨S16x8x512x512, .f32⟩
  | 23 => ⟨S_, .f32⟩
  | 24 => ⟨S16x8x512x512, .f32⟩
  | 25 => ⟨S16x8x512x512, .i1⟩
  | 26 => ⟨S16x8x512x512, .f32⟩
  | 27 => ⟨S_, .f32⟩
  | 28 => ⟨S16x8x512x512, .f32⟩
  | 29 => ⟨S16x8x512x512, .f32⟩
  | 30 => ⟨S16x8x512x512, .f32⟩
  | 31 => ⟨S_, .f32⟩
  | 32 => ⟨S16x8x512x512, .f32⟩
  | 33 => ⟨S16x8x512x512, .i1⟩
  | 34 => ⟨S16x8x512x512, .f32⟩
  | 35 => ⟨S_, .f32⟩
  | 36 => ⟨S16x8x512x512, .f32⟩
  | 37 => ⟨S16x8x512x512, .f32⟩
  | 38 => ⟨S16x8x512x512, .f32⟩
  | 39 => ⟨S16x8x512x512, .f32⟩
  | 40 => ⟨S_, .i32⟩
  | 41 => ⟨S_, .f32⟩
  | 42 => ⟨S16x8x514x514, .f32⟩
  | 43 => ⟨S512, .i32⟩
  | 44 => ⟨S512, .i32⟩
  | 45 => ⟨S16x8x512x512, .f32⟩
  | 46 => ⟨S16x8x512x512, .f32⟩
  | 47 => ⟨S16x8x512x512, .f32⟩
  | 48 => ⟨S_, .i32⟩
  | 49 => ⟨S512, .i32⟩
  | 50 => ⟨S512, .i32⟩
  | 51 => ⟨S_, .i32⟩
  | 52 => ⟨S512, .i32⟩
  | 53 => ⟨S512, .i1⟩
  | 54 => ⟨S_, .i32⟩
  | 55 => ⟨S512, .i32⟩
  | 56 => ⟨S512, .i32⟩
  | 57 => ⟨S_, .i32⟩
  | 58 => ⟨S512, .i32⟩
  | 59 => ⟨S512, .i1⟩
  | 60 => ⟨S512, .i1⟩
  | 61 => ⟨S_, .i32⟩
  | 62 => ⟨S512, .i32⟩
  | 63 => ⟨S512, .i32⟩
  | 64 => ⟨S_, .i32⟩
  | 65 => ⟨S512, .i32⟩
  | 66 => ⟨S512, .i1⟩
  | 67 => ⟨S_, .i32⟩
  | 68 => ⟨S512, .i32⟩
  | 69 => ⟨S512, .i32⟩
  | 70 => ⟨S_, .i32⟩
  | 71 => ⟨S512, .i32⟩
  | 72 => ⟨S512, .i1⟩
  | 73 => ⟨S512, .i1⟩
  | 74 => ⟨S16x8x512x512, .f32⟩
  | 75 => ⟨S16x8x512x512, .f32⟩
  | 76 => ⟨S16x8x512x512, .f32⟩
  | 77 => ⟨S16x8x512x512, .f32⟩
  | 78 => ⟨S512x1, .i1⟩
  | 79 => ⟨S1x512, .i1⟩
  | 80 => ⟨S512x512, .i1⟩
  | 81 => ⟨S512x512, .i1⟩
  | 82 => ⟨S512x512, .i1⟩
  | 83 => ⟨S_, .f32⟩
  | 84 => ⟨S_, .f32⟩
  | 85 => ⟨S16x8x512x512, .i1⟩
  | 86 => ⟨S16x8x512x512, .f32⟩
  | 87 => ⟨S16x8x512x512, .f32⟩
  | 88 => ⟨S16x8x512x512, .f32⟩
  | 89 => ⟨S_, .i32⟩
  | 90 => ⟨S512, .i32⟩
  | 91 => ⟨S512, .i32⟩
  | 92 => ⟨S_, .i32⟩
  | 93 => ⟨S512, .i32⟩
  | 94 => ⟨S512, .i1⟩
  | 95 => ⟨S_, .i32⟩
  | 96 => ⟨S512, .i32⟩
  | 97 => ⟨S512, .i32⟩
  | 98 => ⟨S_, .i32⟩
  | 99 => ⟨S512, .i32⟩
  | 100 => ⟨S512, .i1⟩
  | 101 => ⟨S512, .i1⟩
  | 102 => ⟨S16x8x512x512, .f32⟩
  | 103 => ⟨S16x8x512x512, .f32⟩
  | 104 => ⟨S16x8x512x512, .f32⟩
  | 105 => ⟨S16x8x512x512, .f32⟩
  | 106 => ⟨S512x1, .i1⟩
  | 107 => ⟨S1x512, .i1⟩
  | 108 => ⟨S512x512, .i1⟩
  | 109 => ⟨S512x512, .i1⟩
  | 110 => ⟨S512x512, .i1⟩
  | 111 => ⟨S_, .f32⟩
  | 112 => ⟨S_, .f32⟩
  | 113 => ⟨S16x8x512x512, .i1⟩
  | 114 => ⟨S16x8x512x512, .f32⟩
  | 115 => ⟨S16x8x512x512, .f32⟩
  | 116 => ⟨S16x8x512x512, .f32⟩
  | 117 => ⟨S_, .i32⟩
  | 118 => ⟨S512, .i32⟩
  | 119 => ⟨S512, .i32⟩
  | 120 => ⟨S_, .i32⟩
  | 121 => ⟨S512, .i32⟩
  | 122 => ⟨S512, .i1⟩
  | 123 => ⟨S_, .i32⟩
  | 124 => ⟨S512, .i32⟩
  | 125 => ⟨S512, .i32⟩
  | 126 => ⟨S_, .i32⟩
  | 127 => ⟨S512, .i32⟩
  | _ => ⟨S8x16x512x512, .f32⟩

abbrev hbmTy0_1 (i : Nat) : BufTy := match i % 128 with
  | 0 => ⟨S512, .i1⟩
  | 1 => ⟨S512, .i1⟩
  | 2 => ⟨S16x8x512x512, .f32⟩
  | 3 => ⟨S16x8x512x512, .f32⟩
  | 4 => ⟨S16x8x512x512, .f32⟩
  | 5 => ⟨S16x8x512x512, .f32⟩
  | 6 => ⟨S512x1, .i1⟩
  | 7 => ⟨S1x512, .i1⟩
  | 8 => ⟨S512x512, .i1⟩
  | 9 => ⟨S512x512, .i1⟩
  | 10 => ⟨S512x512, .i1⟩
  | 11 => ⟨S_, .f32⟩
  | 12 => ⟨S_, .f32⟩
  | 13 => ⟨S16x8x512x512, .i1⟩
  | 14 => ⟨S16x8x512x512, .f32⟩
  | 15 => ⟨S16x8x512x512, .f32⟩
  | 16 => ⟨S16x8x512x512, .f32⟩
  | 17 => ⟨S_, .i32⟩
  | 18 => ⟨S512, .i32⟩
  | 19 => ⟨S512, .i32⟩
  | 20 => ⟨S_, .i32⟩
  | 21 => ⟨S512, .i32⟩
  | 22 => ⟨S512, .i1⟩
  | 23 => ⟨S_, .i32⟩
  | 24 => ⟨S512, .i32⟩
  | 25 => ⟨S512, .i32⟩
  | 26 => ⟨S_, .i32⟩
  | 27 => ⟨S512, .i32⟩
  | 28 => ⟨S512, .i1⟩
  | 29 => ⟨S512, .i1⟩
  | 30 => ⟨S_, .i32⟩
  | 31 => ⟨S512, .i32⟩
  | 32 => ⟨S512, .i32⟩
  | 33 => ⟨S_, .i32⟩
  | 34 => ⟨S512, .i32⟩
  | 35 => ⟨S512, .i1⟩
  | 36 => ⟨S_, .i32⟩
  | 37 => ⟨S512, .i32⟩
  | 38 => ⟨S512, .i32⟩
  | 39 => ⟨S_, .i32⟩
  | 40 => ⟨S512, .i32⟩
  | 41 => ⟨S512, .i1⟩
  | 42 => ⟨S512, .i1⟩
  | 43 => ⟨S16x8x512x512, .f32⟩
  | 44 => ⟨S16x8x512x512, .f32⟩
  | 45 => ⟨S16x8x512x512, .f32⟩
  | 46 => ⟨S16x8x512x512, .f32⟩
  | 47 => ⟨S512x1, .i1⟩
  | 48 => ⟨S1x512, .i1⟩
  | 49 => ⟨S512x512, .i1⟩
  | 50 => ⟨S512x512, .i1⟩
  | 51 => ⟨S512x512, .i1⟩
  | 52 => ⟨S_, .f32⟩
  | 53 => ⟨S_, .f32⟩
  | 54 => ⟨S16x8x512x512, .i1⟩
  | 55 => ⟨S16x8x512x512, .f32⟩
  | 56 => ⟨S16x8x512x512, .f32⟩
  | 57 => ⟨S16x8x512x512, .f32⟩
  | 58 => ⟨S_, .i32⟩
  | 59 => ⟨S512, .i32⟩
  | 60 => ⟨S512, .i32⟩
  | 61 => ⟨S_, .i32⟩
  | 62 => ⟨S512, .i32⟩
  | 63 => ⟨S512, .i1⟩
  | 64 => ⟨S_, .i32⟩
  | 65 => ⟨S512, .i32⟩
  | 66 => ⟨S512, .i32⟩
  | 67 => ⟨S_, .i32⟩
  | 68 => ⟨S512, .i32⟩
  | 69 => ⟨S512, .i1⟩
  | 70 => ⟨S512, .i1⟩
  | 71 => ⟨S16x8x512x512, .f32⟩
  | 72 => ⟨S16x8x512x512, .f32⟩
  | 73 => ⟨S16x8x512x512, .f32⟩
  | 74 => ⟨S16x8x512x512, .f32⟩
  | 75 => ⟨S512x1, .i1⟩
  | 76 => ⟨S1x512, .i1⟩
  | 77 => ⟨S512x512, .i1⟩
  | 78 => ⟨S512x512, .i1⟩
  | 79 => ⟨S512x512, .i1⟩
  | 80 => ⟨S_, .f32⟩
  | 81 => ⟨S_, .f32⟩
  | 82 => ⟨S16x8x512x512, .i1⟩
  | 83 => ⟨S16x8x512x512, .f32⟩
  | 84 => ⟨S16x8x512x512, .f32⟩
  | 85 => ⟨S16x8x512x512, .f32⟩
  | 86 => ⟨S_, .i32⟩
  | 87 => ⟨S512, .i32⟩
  | 88 => ⟨S512, .i32⟩
  | 89 => ⟨S_, .i32⟩
  | 90 => ⟨S512, .i32⟩
  | 91 => ⟨S512, .i1⟩
  | 92 => ⟨S_, .i32⟩
  | 93 => ⟨S512, .i32⟩
  | 94 => ⟨S512, .i32⟩
  | 95 => ⟨S_, .i32⟩
  | 96 => ⟨S512, .i32⟩
  | 97 => ⟨S512, .i1⟩
  | 98 => ⟨S512, .i1⟩
  | 99 => ⟨S16x8x512x512, .f32⟩
  | 100 => ⟨S16x8x512x512, .f32⟩
  | 101 => ⟨S16x8x512x512, .f32⟩
  | 102 => ⟨S16x8x512x512, .f32⟩
  | 103 => ⟨S512x1, .i1⟩
  | 104 => ⟨S1x512, .i1⟩
  | 105 => ⟨S512x512, .i1⟩
  | 106 => ⟨S512x512, .i1⟩
  | 107 => ⟨S512x512, .i1⟩
  | 108 => ⟨S_, .f32⟩
  | 109 => ⟨S_, .f32⟩
  | 110 => ⟨S16x8x512x512, .i1⟩
  | 111 => ⟨S16x8x512x512, .f32⟩
  | 112 => ⟨S16x8x512x512, .f32⟩
  | 113 => ⟨S16x8x512x512, .f32⟩
  | 114 => ⟨S_, .i32⟩
  | 115 => ⟨S512, .i32⟩
  | 116 => ⟨S512, .i32⟩
  | 117 => ⟨S_, .i32⟩
  | 118 => ⟨S512, .i32⟩
  | 119 => ⟨S512, .i1⟩
  | 120 => ⟨S_, .i32⟩
  | 121 => ⟨S512, .i32⟩
  | 122 => ⟨S512, .i32⟩
  | 123 => ⟨S_, .i32⟩
  | 124 => ⟨S512, .i32⟩
  | 125 => ⟨S512, .i1⟩
  | 126 => ⟨S512, .i1⟩
  | 127 => ⟨S_, .i32⟩
  | _ => ⟨S8x16x512x512, .f32⟩

abbrev hbmTy0_2 (i : Nat) : BufTy := match i % 128 with
  | 0 => ⟨S512, .i32⟩
  | 1 => ⟨S512, .i32⟩
  | 2 => ⟨S_, .i32⟩
  | 3 => ⟨S512, .i32⟩
  | 4 => ⟨S512, .i1⟩
  | 5 => ⟨S_, .i32⟩
  | 6 => ⟨S512, .i32⟩
  | 7 => ⟨S512, .i32⟩
  | 8 => ⟨S_, .i32⟩
  | 9 => ⟨S512, .i32⟩
  | 10 => ⟨S512, .i1⟩
  | 11 => ⟨S512, .i1⟩
  | 12 => ⟨S16x8x512x512, .f32⟩
  | 13 => ⟨S16x8x512x512, .f32⟩
  | 14 => ⟨S16x8x512x512, .f32⟩
  | 15 => ⟨S16x8x512x512, .f32⟩
  | 16 => ⟨S512x1, .i1⟩
  | 17 => ⟨S1x512, .i1⟩
  | 18 => ⟨S512x512, .i1⟩
  | 19 => ⟨S512x512, .i1⟩
  | 20 => ⟨S512x512, .i1⟩
  | 21 => ⟨S_, .f32⟩
  | 22 => ⟨S_, .f32⟩
  | 23 => ⟨S16x8x512x512, .i1⟩
  | 24 => ⟨S16x8x512x512, .f32⟩
  | 25 => ⟨S16x8x512x512, .f32⟩
  | 26 => ⟨S16x8x512x512, .f32⟩
  | 27 => ⟨S_, .i32⟩
  | 28 => ⟨S512, .i32⟩
  | 29 => ⟨S512, .i32⟩
  | 30 => ⟨S_, .i32⟩
  | 31 => ⟨S512, .i32⟩
  | 32 => ⟨S512, .i1⟩
  | 33 => ⟨S_, .i32⟩
  | 34 => ⟨S512, .i32⟩
  | 35 => ⟨S512, .i32⟩
  | 36 => ⟨S_, .i32⟩
  | 37 => ⟨S512, .i32⟩
  | 38 => ⟨S512, .i1⟩
  | 39 => ⟨S512, .i1⟩
  | 40 => ⟨S16x8x512x512, .f32⟩
  | 41 => ⟨S16x8x512x512, .f32⟩
  | 42 => ⟨S16x8x512x512, .f32⟩
  | 43 => ⟨S16x8x512x512, .f32⟩
  | 44 => ⟨S512x1, .i1⟩
  | 45 => ⟨S1x512, .i1⟩
  | 46 => ⟨S512x512, .i1⟩
  | 47 => ⟨S512x512, .i1⟩
  | 48 => ⟨S512x512, .i1⟩
  | 49 => ⟨S_, .f32⟩
  | 50 => ⟨S_, .f32⟩
  | 51 => ⟨S16x8x512x512, .i1⟩
  | 52 => ⟨S16x8x512x512, .f32⟩
  | 53 => ⟨S16x8x512x512, .f32⟩
  | 54 => ⟨S16x8x512x512, .f32⟩
  | 55 => ⟨S_, .i32⟩
  | 56 => ⟨S512, .i32⟩
  | 57 => ⟨S512, .i32⟩
  | 58 => ⟨S_, .i32⟩
  | 59 => ⟨S512, .i32⟩
  | 60 => ⟨S512, .i1⟩
  | 61 => ⟨S_, .i32⟩
  | 62 => ⟨S512, .i32⟩
  | 63 => ⟨S512, .i32⟩
  | 64 => ⟨S_, .i32⟩
  | 65 => ⟨S512, .i32⟩
  | 66 => ⟨S512, .i1⟩
  | 67 => ⟨S512, .i1⟩
  | 68 => ⟨S16x8x512x512, .f32⟩
  | 69 => ⟨S16x8x512x512, .f32⟩
  | 70 => ⟨S16x8x512x512, .f32⟩
  | 71 => ⟨S16x8x512x512, .f32⟩
  | 72 => ⟨S512x1, .i1⟩
  | 73 => ⟨S1x512, .i1⟩
  | 74 => ⟨S512x512, .i1⟩
  | 75 => ⟨S512x512, .i1⟩
  | 76 => ⟨S512x512, .i1⟩
  | 77 => ⟨S_, .f32⟩
  | 78 => ⟨S_, .f32⟩
  | 79 => ⟨S16x8x512x512, .i1⟩
  | 80 => ⟨S16x8x512x512, .f32⟩
  | 81 => ⟨S16x8x512x512, .f32⟩
  | 82 => ⟨S16x8x512x512, .f32⟩
  | 83 => ⟨S_, .f32⟩
  | 84 => ⟨S_, .f32⟩
  | 85 => ⟨S_, .f32⟩
  | 86 => ⟨S_, .f32⟩
  | _ => ⟨S8x16x512x512, .f32⟩

abbrev hbmTy (i : Nat) : BufTy := match i / 128 with
  | 0 => hbmTy0_0 i
  | 1 => hbmTy0_1 i
  | 2 => hbmTy0_2 i
  | _ => ⟨S8x16x512x512, .f32⟩

abbrev bufTy : (tb : Table) → Fin (tcTables nBuf tb) → BufTy
  | .hbm, ⟨i, _⟩ => hbmTy i
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_12 : Ref sig .tc := ⟨.hbm, 61, rfl⟩
abbrev main_v43 : Ref sig .tc := ⟨.hbm, 62, rfl⟩
abbrev main_v44 : Ref sig .tc := ⟨.hbm, 63, rfl⟩
abbrev main_c_13 : Ref sig .tc := ⟨.hbm, 64, rfl⟩
abbrev main_v45 : Ref sig .tc := ⟨.hbm, 65, rfl⟩
abbrev main_v46 : Ref sig .tc := ⟨.hbm, 66, rfl⟩
abbrev main_c_14 : Ref sig .tc := ⟨.hbm, 67, rfl⟩
abbrev main_v47 : Ref sig .tc := ⟨.hbm, 68, rfl⟩
abbrev main_v48 : Ref sig .tc := ⟨.hbm, 69, rfl⟩
abbrev main_c_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v61 : Ref sig .tc := ⟨.hbm, 87, rfl⟩
abbrev main_v62 : Ref sig .tc := ⟨.hbm, 88, rfl⟩
abbrev main_c_17 : Ref sig .tc := ⟨.hbm, 89, rfl⟩
abbrev main_v63 : Ref sig .tc := ⟨.hbm, 90, rfl⟩
abbrev main_v64 : Ref sig .tc := ⟨.hbm, 91, rfl⟩
abbrev main_c_18 : Ref sig .tc := ⟨.hbm, 92, rfl⟩
abbrev main_v65 : Ref sig .tc := ⟨.hbm, 93, rfl⟩
abbrev main_v66 : Ref sig .tc := ⟨.hbm, 94, rfl⟩
abbrev main_c_19 : Ref sig .tc := ⟨.hbm, 95, rfl⟩
abbrev main_v67 : Ref sig .tc := ⟨.hbm, 96, rfl⟩
abbrev main_v68 : Ref sig .tc := ⟨.hbm, 97, rfl⟩
abbrev main_c_20 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_21 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v81 : Ref sig .tc := ⟨.hbm, 115, rfl⟩
abbrev main_v82 : Ref sig .tc := ⟨.hbm, 116, rfl⟩
abbrev main_c_22 : Ref sig .tc := ⟨.hbm, 117, rfl⟩
abbrev main_v83 : Ref sig .tc := ⟨.hbm, 118, rfl⟩
abbrev main_v84 : Ref sig .tc := ⟨.hbm, 119, rfl⟩
abbrev main_c_23 : Ref sig .tc := ⟨.hbm, 120, rfl⟩
abbrev main_v85 : Ref sig .tc := ⟨.hbm, 121, rfl⟩
abbrev main_v86 : Ref sig .tc := ⟨.hbm, 122, rfl⟩
abbrev main_c_24 : Ref sig .tc := ⟨.hbm, 123, rfl⟩
abbrev main_v87 : Ref sig .tc := ⟨.hbm, 124, rfl⟩
abbrev main_v88 : Ref sig .tc := ⟨.hbm, 125, rfl⟩
abbrev main_c_25 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_26 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_v101 : Ref sig .tc := ⟨.hbm, 143, rfl⟩
abbrev main_v102 : Ref sig .tc := ⟨.hbm, 144, rfl⟩
abbrev main_c_27 : Ref sig .tc := ⟨.hbm, 145, rfl⟩
abbrev main_v103 : Ref sig .tc := ⟨.hbm, 146, rfl⟩
abbrev main_v104 : Ref sig .tc := ⟨.hbm, 147, rfl⟩
abbrev main_c_28 : Ref sig .tc := ⟨.hbm, 148, rfl⟩
abbrev main_v105 : Ref sig .tc := ⟨.hbm, 149, rfl⟩
abbrev main_v106 : Ref sig .tc := ⟨.hbm, 150, rfl⟩
abbrev main_c_29 : Ref sig .tc := ⟨.hbm, 151, rfl⟩
abbrev main_v107 : Ref sig .tc := ⟨.hbm, 152, rfl⟩
abbrev main_v108 : Ref sig .tc := ⟨.hbm, 153, rfl⟩
abbrev main_c_30 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_31 : Ref sig .tc := ⟨.hbm, 158, rfl⟩
abbrev main_v112 : Ref sig .tc := ⟨.hbm, 159, rfl⟩
abbrev main_v113 : Ref sig .tc := ⟨.hbm, 160, rfl⟩
abbrev main_c_32 : Ref sig .tc := ⟨.hbm, 161, rfl⟩
abbrev main_v114 : Ref sig .tc := ⟨.hbm, 162, rfl⟩
abbrev main_v115 : Ref sig .tc := ⟨.hbm, 163, rfl⟩
abbrev main_c_33 : Ref sig .tc := ⟨.hbm, 164, rfl⟩
abbrev main_v116 : Ref sig .tc := ⟨.hbm, 165, rfl⟩
abbrev main_v117 : Ref sig .tc := ⟨.hbm, 166, rfl⟩
abbrev main_c_34 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_35 : Ref sig .tc := ⟨.hbm, 180, rfl⟩
abbrev main_call4_v0 : Ref sig .tc := ⟨.hbm, 181, rfl⟩
abbrev main_call4_v1 : Ref sig .tc := ⟨.hbm, 182, rfl⟩
abbrev main_call4_v2 : Ref sig .tc := ⟨.hbm, 183, rfl⟩
abbrev main_v130 : Ref sig .tc := ⟨.hbm, 184, rfl⟩
abbrev main_v131 : Ref sig .tc := ⟨.hbm, 185, rfl⟩
abbrev main_c_36 : Ref sig .tc := ⟨.hbm, 186, rfl⟩
abbrev main_v132 : Ref sig .tc := ⟨.hbm, 187, rfl⟩
abbrev main_v133 : Ref sig .tc := ⟨.hbm, 188, rfl⟩
abbrev main_c_37 : Ref sig .tc := ⟨.hbm, 189, rfl⟩
abbrev main_v134 : Ref sig .tc := ⟨.hbm, 190, rfl⟩
abbrev main_v135 : Ref sig .tc := ⟨.hbm, 191, rfl⟩
abbrev main_c_38 : Ref sig .tc := ⟨.hbm, 192, rfl⟩
abbrev main_v136 : Ref sig .tc := ⟨.hbm, 193, rfl⟩
abbrev main_v137 : Ref sig .tc := ⟨.hbm, 194, rfl⟩
abbrev main_c_39 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_40 : Ref sig .tc := ⟨.hbm, 208, rfl⟩
abbrev main_call5_v0 : Ref sig .tc := ⟨.hbm, 209, rfl⟩
abbrev main_call5_v1 : Ref sig .tc := ⟨.hbm, 210, rfl⟩
abbrev main_call5_v2 : Ref sig .tc := ⟨.hbm, 211, rfl⟩
abbrev main_v150 : Ref sig .tc := ⟨.hbm, 212, rfl⟩
abbrev main_v151 : Ref sig .tc := ⟨.hbm, 213, rfl⟩
abbrev main_c_41 : Ref sig .tc := ⟨.hbm, 214, rfl⟩
abbrev main_v152 : Ref sig .tc := ⟨.hbm, 215, rfl⟩
abbrev main_v153 : Ref sig .tc := ⟨.hbm, 216, rfl⟩
abbrev main_c_42 : Ref sig .tc := ⟨.hbm, 217, rfl⟩
abbrev main_v154 : Ref sig .tc := ⟨.hbm, 218, rfl⟩
abbrev main_v155 : Ref sig .tc := ⟨.hbm, 219, rfl⟩
abbrev main_c_43 : Ref sig .tc := ⟨.hbm, 220, rfl⟩
abbrev main_v156 : Ref sig .tc := ⟨.hbm, 221, rfl⟩
abbrev main_v157 : Ref sig .tc := ⟨.hbm, 222, rfl⟩
abbrev main_c_44 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_cst_45 : Ref sig .tc := ⟨.hbm, 236, rfl⟩
abbrev main_call6_v0 : Ref sig .tc := ⟨.hbm, 237, rfl⟩
abbrev main_call6_v1 : Ref sig .tc := ⟨.hbm, 238, rfl⟩
abbrev main_call6_v2 : Ref sig .tc := ⟨.hbm, 239, rfl⟩
abbrev main_v170 : Ref sig .tc := ⟨.hbm, 240, rfl⟩
abbrev main_v171 : Ref sig .tc := ⟨.hbm, 241, rfl⟩
abbrev main_c_46 : Ref sig .tc := ⟨.hbm, 242, rfl⟩
abbrev main_v172 : Ref sig .tc := ⟨.hbm, 243, rfl⟩
abbrev main_v173 : Ref sig .tc := ⟨.hbm, 244, rfl⟩
abbrev main_c_47 : Ref sig .tc := ⟨.hbm, 245, rfl⟩
abbrev main_v174 : Ref sig .tc := ⟨.hbm, 246, rfl⟩
abbrev main_v175 : Ref sig .tc := ⟨.hbm, 247, rfl⟩
abbrev main_c_48 : Ref sig .tc := ⟨.hbm, 248, rfl⟩
abbrev main_v176 : Ref sig .tc := ⟨.hbm, 249, rfl⟩
abbrev main_v177 : Ref sig .tc := ⟨.hbm, 250, rfl⟩
abbrev main_c_49 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_c_50 : Ref sig .tc := ⟨.hbm, 255, rfl⟩
abbrev main_v181 : Ref sig .tc := ⟨.hbm, 256, rfl⟩
abbrev main_v182 : Ref sig .tc := ⟨.hbm, 257, rfl⟩
abbrev main_c_51 : Ref sig .tc := ⟨.hbm, 258, rfl⟩
abbrev main_v183 : Ref sig .tc := ⟨.hbm, 259, rfl⟩
abbrev main_v184 : Ref sig .tc := ⟨.hbm, 260, rfl⟩
abbrev main_c_52 : Ref sig .tc := ⟨.hbm, 261, rfl⟩
abbrev main_v185 : Ref sig .tc := ⟨.hbm, 262, rfl⟩
abbrev main_v186 : Ref sig .tc := ⟨.hbm, 263, rfl⟩
abbrev main_c_53 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_cst_54 : Ref sig .tc := ⟨.hbm, 277, rfl⟩
abbrev main_call7_v0 : Ref sig .tc := ⟨.hbm, 278, rfl⟩
abbrev main_call7_v1 : Ref sig .tc := ⟨.hbm, 279, rfl⟩
abbrev main_call7_v2 : Ref sig .tc := ⟨.hbm, 280, rfl⟩
abbrev main_v199 : Ref sig .tc := ⟨.hbm, 281, rfl⟩
abbrev main_v200 : Ref sig .tc := ⟨.hbm, 282, rfl⟩
abbrev main_c_55 : Ref sig .tc := ⟨.hbm, 283, rfl⟩
abbrev main_v201 : Ref sig .tc := ⟨.hbm, 284, rfl⟩
abbrev main_v202 : Ref sig .tc := ⟨.hbm, 285, rfl⟩
abbrev main_c_56 : Ref sig .tc := ⟨.hbm, 286, rfl⟩
abbrev main_v203 : Ref sig .tc := ⟨.hbm, 287, rfl⟩
abbrev main_v204 : Ref sig .tc := ⟨.hbm, 288, rfl⟩
abbrev main_c_57 : Ref sig .tc := ⟨.hbm, 289, rfl⟩
abbrev main_v205 : Ref sig .tc := ⟨.hbm, 290, rfl⟩
abbrev main_v206 : Ref sig .tc := ⟨.hbm, 291, rfl⟩
abbrev main_c_58 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_cst_59 : Ref sig .tc := ⟨.hbm, 305, rfl⟩
abbrev main_call8_v0 : Ref sig .tc := ⟨.hbm, 306, rfl⟩
abbrev main_call8_v1 : Ref sig .tc := ⟨.hbm, 307, rfl⟩
abbrev main_call8_v2 : Ref sig .tc := ⟨.hbm, 308, rfl⟩
abbrev main_v219 : Ref sig .tc := ⟨.hbm, 309, rfl⟩
abbrev main_v220 : Ref sig .tc := ⟨.hbm, 310, rfl⟩
abbrev main_c_60 : Ref sig .tc := ⟨.hbm, 311, rfl⟩
abbrev main_v221 : Ref sig .tc := ⟨.hbm, 312, rfl⟩
abbrev main_v222 : Ref sig .tc := ⟨.hbm, 313, rfl⟩
abbrev main_c_61 : Ref sig .tc := ⟨.hbm, 314, rfl⟩
abbrev main_v223 : Ref sig .tc := ⟨.hbm, 315, rfl⟩
abbrev main_v224 : Ref sig .tc := ⟨.hbm, 316, rfl⟩
abbrev main_c_62 : Ref sig .tc := ⟨.hbm, 317, rfl⟩
abbrev main_v225 : Ref sig .tc := ⟨.hbm, 318, rfl⟩
abbrev main_v226 : Ref sig .tc := ⟨.hbm, 319, rfl⟩
abbrev main_c_63 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_v234 : Ref sig .tc := ⟨.hbm, 328, rfl⟩
abbrev main_v235 : Ref sig .tc := ⟨.hbm, 329, rfl⟩
abbrev main_v236 : Ref sig .tc := ⟨.hbm, 330, rfl⟩
abbrev main_v237 : Ref sig .tc := ⟨.hbm, 331, rfl⟩
abbrev main_v238 : Ref sig .tc := ⟨.hbm, 332, rfl⟩
abbrev main_cst_64 : Ref sig .tc := ⟨.hbm, 333, rfl⟩
abbrev main_call9_v0 : Ref sig .tc := ⟨.hbm, 334, rfl⟩
abbrev main_call9_v1 : Ref sig .tc := ⟨.hbm, 335, rfl⟩
abbrev main_call9_v2 : Ref sig .tc := ⟨.hbm, 336, rfl⟩
abbrev main_v239 : Ref sig .tc := ⟨.hbm, 337, rfl⟩
abbrev main_v240 : Ref sig .tc := ⟨.hbm, 338, rfl⟩
abbrev main_cst_65 : Ref sig .tc := ⟨.hbm, 339, rfl⟩
abbrev main_v241 : Ref sig .tc := ⟨.hbm, 340, rfl⟩
abbrev main_cst_66 : Ref sig .tc := ⟨.hbm, 341, rfl⟩
abbrev main_v242 : Ref sig .tc := ⟨.hbm, 342, rfl⟩

abbrev nD : Nat := 1
abbrev τ : Topo := Topo.v7x

variable {F : FTy → Type} [FloatOps F]

class Facts₀ : Prop where
  transposes_S8x16x512x512_S16x8x512x512_1_0_2_3 : S8x16x512x512.Transposes [1, 0, 2, 3] S16x8x512x512
  bcast_S_S16x8x512x512 : S_.BroadcastsInDim S16x8x512x512 (![] : Fin 0 → Fin S16x8x512x512.rank)
  pads_S16x8x512x512_S16x8x514x514_000_000_110_110 : S16x8x512x512.Pads (![0, 0, 1, 1] : Fin 4 → Nat) ![0, 0, 1, 1] ![0, 0, 0, 0] S16x8x514x514
  h_S_ : 0 < S_.numel
  bcast_S_S512 : S_.BroadcastsInDim S512 (![] : Fin 0 → Fin S512.rank)
  slices_S16x8x514x514_S16x8x512x512_0_0_0_0 : S16x8x514x514.Slices ![0, 0, 0, 0] S16x8x512x512
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S16x8x512x512_2_3 : S512x512.BroadcastsInDim S16x8x512x512 (![2, 3] : Fin 2 → Fin S16x8x512x512.rank)
  slices_S16x8x514x514_S16x8x512x512_0_0_0_1 : S16x8x514x514.Slices ![0, 0, 0, 1] S16x8x512x512
  slices_S16x8x514x514_S16x8x512x512_0_0_0_2 : S16x8x514x514.Slices ![0, 0, 0, 2] S16x8x512x512
  slices_S16x8x514x514_S16x8x512x512_0_0_1_0 : S16x8x514x514.Slices ![0, 0, 1, 0] S16x8x512x512
  slices_S16x8x514x514_S16x8x512x512_0_0_1_1 : S16x8x514x514.Slices ![0, 0, 1, 1] S16x8x512x512
  slices_S16x8x514x514_S16x8x512x512_0_0_1_2 : S16x8x514x514.Slices ![0, 0, 1, 2] S16x8x512x512
  slices_S16x8x514x514_S16x8x512x512_0_0_2_0 : S16x8x514x514.Slices ![0, 0, 2, 0] S16x8x512x512
  slices_S16x8x514x514_S16x8x512x512_0_0_2_1 : S16x8x514x514.Slices ![0, 0, 2, 1] S16x8x512x512
  slices_S16x8x514x514_S16x8x512x512_0_0_2_2 : S16x8x514x514.Slices ![0, 0, 2, 2] S16x8x512x512
  reducesTo_S16x8x512x512_S_d0_1_2_3 : S16x8x512x512.ReducesTo [0, 1, 2, 3] S_

variable [Facts₀]

class Facts : Prop extends Facts₀ where

variable [Facts]
-- ==== Proof.KernelPieces.lean ====
/-
  What one grid point leaves in the accumulator and in the output block.

  At every grid point the body adds the point's tile total to a 1×1 accumulator: at the first point of a row of the
  grid it first stores zero there, elsewhere it finds what the previous point left. Read back, the accumulator after
  the point is one function of the three input blocks and of the previous contents (zero at a first point); at the
  last point of a row of the grid the output block is a copy of that accumulator.
-/
import proofs.«112272_j5188320493678_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The accumulator after a point: the previous contents plus the tile total of the point's three blocks. -/
def tileAcc (x0 : Vec F S1x1x512x512 .f32) (x1 : Vec F S1x1x512x512 .f32) (x2 : Vec F S1x1x512x512 .i32) (prev : Vec F S1x1 .f32) : Vec F S1x1 .f32 :=
  k0_pay1
    (k0_pay18 (k0_pay4 x0) (k0_pay5 x1) (k0_pay9 (k0_pay6 x2) (k0_pay7 x1) (k0_pay8 x1)) k0_pay11 k0_pay12 k0_pay13
      (k0_pay14 (iota Kind.tc S512x512 32 [1] iota_S512x512_d1_w32))
      (k0_pay15 (iota Kind.tc S512x512 32 [1] iota_S512x512_d1_w32))
      (k0_pay16 (k0_pay4 x0) (k0_pay5 x1) (iota Kind.tc S512x512 32 [1] iota_S512x512_d1_w32) k0_pay10 k0_pay13)
      (k0_pay17 (k0_pay4 x0)) (1#32) prev)

/-- A middle point of a row of the grid: the accumulator holds the previous contents plus the tile total. -/
theorem sB (c : Dev nD) (i : grid0.Coords) (a2 : Memref sig .tc .vmem S1x1x512x512 .f32) (h2 : a2.IsWhole) (a3 : Memref sig .tc .vmem S1x1x512x512 .f32) (h3 : a3.IsWhole) (a4 : Memref sig .tc .vmem S1x1x512x512 .i32) (h4 : a4.IsWhole) (a5 : Memref sig .tc .vmem S1x1x1 .f32) (h5 : a5.IsWhole) (a6 : Memref sig .tc .vmem S1x1 .f32) (h6 : a6.IsWhole) (hc0 : ¬cond0_0 i) (hc1 : ¬cond0_1 i)
    (x0 : Vec F S1x1x512x512 .f32) (x1 : Vec F S1x1x512x512 .f32) (x2 : Vec F S1x1x512x512 .i32) (xs0 : Vec F S1x1 .f32) :
    sout0_B_0 c i a2 h2 a3 h3 a4 h4 a5 h5 a6 h6 hc0 hc1 x0 x1 x2 xs0 = tileAcc x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz2]
  simp only [View.readAt_eq_ld, h2.read_unread, h3.read_unread, h4.read_unread, h6.read_unread,
    View.ld_unit_zero (S := S1x1x512x512) hz4, View.ld_unit_zero (S := S1x1) hz2]
  rfl

/-- The last point of a row of the grid: the accumulator likewise … -/
theorem sC (c : Dev nD) (i : grid0.Coords) (a2 : Memref sig .tc .vmem S1x1x512x512 .f32) (h2 : a2.IsWhole) (a3 : Memref sig .tc .vmem S1x1x512x512 .f32) (h3 : a3.IsWhole) (a4 : Memref sig .tc .vmem S1x1x512x512 .i32) (h4 : a4.IsWhole) (a5 : Memref sig .tc .vmem S1x1x1 .f32) (h5 : a5.IsWhole) (a6 : Memref sig .tc .vmem S1x1 .f32) (h6 : a6.IsWhole) (hc0 : ¬cond0_0 i) (hc1 : cond0_1 i)
    (x0 : Vec F S1x1x512x512 .f32) (x1 : Vec F S1x1x512x512 .f32) (x2 : Vec F S1x1x512x512 .i32) (xs0 : Vec F S1x1 .f32) :
    sout0_C_0 c i a2 h2 a3 h3 a4 h4 a5 h5 a6 h6 hc0 hc1 x0 x1 x2 xs0 = tileAcc x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz2]
  simp only [View.readAt_eq_ld, h2.read_unread, h3.read_unread, h4.read_unread, h6.read_unread,
    View.ld_unit_zero (S := S1x1x512x512) hz4, View.ld_unit_zero (S := S1x1) hz2]
  rfl

/-- … and the output block is a copy of it. -/
theorem oC (c : Dev nD) (i : grid0.Coords) (a2 : Memref sig .tc .vmem S1x1x512x512 .f32) (h2 : a2.IsWhole) (a3 : Memref sig .tc .vmem S1x1x512x512 .f32) (h3 : a3.IsWhole) (a4 : Memref sig .tc .vmem S1x1x512x512 .i32) (h4 : a4.IsWhole) (a5 : Memref sig .tc .vmem S1x1x1 .f32) (h5 : a5.IsWhole) (a6 : Memref sig .tc .vmem S1x1 .f32) (h6 : a6.IsWhole) (hc0 : ¬cond0_0 i) (hc1 : cond0_1 i)
    (x0 : Vec F S1x1x512x512 .f32) (x1 : Vec F S1x1x512x512 .f32) (x2 : Vec F S1x1x512x512 .i32) (xs0 : Vec F S1x1 .f32) :
    out0_C_3 c i a2 h2 a3 h3 a4 h4 a5 h5 a6 h6 hc0 hc1 x0 x1 x2 xs0 = k0_pay2 (tileAcc x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero (S := S1x1x1) hz3, View.readCov_unit_zero (S := S1x1) _ hz2]
  simp only [View.readAt_eq_ld, h2.read_unread, h3.read_unread, h4.read_unread, h6.read_unread,
    View.ld_unit_zero (S := S1x1x512x512) hz4, View.ld_unit_zero (S := S1x1) hz2]
  rfl

/-- The first point of a row of the grid: the accumulator holds zero plus the tile total. -/
theorem sA (c : Dev nD) (i : grid0.Coords) (a2 : Memref sig .tc .vmem S1x1x512x512 .f32) (h2 : a2.IsWhole) (a3 : Memref sig .tc .vmem S1x1x512x512 .f32) (h3 : a3.IsWhole) (a4 : Memref sig .tc .vmem S1x1x512x512 .i32) (h4 : a4.IsWhole) (a5 : Memref sig .tc .vmem S1x1x1 .f32) (h5 : a5.IsWhole) (a6 : Memref sig .tc .vmem S1x1 .f32) (h6 : a6.IsWhole) (hc0 : cond0_0 i) (hc1 : ¬cond0_1 i)
    (x0 : Vec F S1x1x512x512 .f32) (x1 : Vec F S1x1x512x512 .f32) (x2 : Vec F S1x1x512x512 .i32) :
    sout0_A_0 c i a2 h2 a3 h3 a4 h4 a5 h5 a6 h6 hc0 hc1 x0 x1 x2 = tileAcc x0 x1 x2 k0_pay3 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread,
    View.ld_unit_zero (S := S1x1x512x512) hz4]
  rfl

end Cert.KernelIdeal.Pieces

end
-- ==== Proof.KernelAccum.lean ====
/-
  The accumulator along a row of the grid, and the output block it ends in.

  The grid has 16 rows of 8 points, visited in order; point n is point n mod 8 of row n div 8. Within a row the
  accumulator restarts from zero at the row's first point and each point adds its tile total to what the point before
  left; what the accumulator holds after point n is therefore defined by recursion on n. At the last point of a row the
  output block, the one write-back of that row, is a copy of the accumulator.
-/
import proofs.«112272_j5188320493678_2_alg».proof.Proof.KernelPieces

noncomputable section

namespace Cert.KernelIdeal.Accum

open Cert.KernelIdeal Cert.KernelIdeal.Gen Cert.KernelIdeal.Pieces
open Idealize.ShloMosaic Idealize.ShloMosaic.TcCoe Idealize.SL.Sem

variable {F : FTy → Type} [FloatOps F]
variable (m : (ℓ : Loc nD τ sig) → Buf (Elt F) ℓ)

/-- The accumulator after point t, from what it held before: the point's three blocks' tile total added. -/
def accAt (c : Dev nD) (t : Fin cfg0.N) (prev : Vec F S1x1 .f32) : Vec F S1x1 .f32 :=
  tileAcc (iblk m c 0 t) (iblk m c 1 t) (iblk m c 2 t) prev

/-- The accumulator after point n: restarted from zero at a row's first point, continued otherwise. -/
def scratchAt (c : Dev nD) : (n : ℕ) → n < cfg0.N → Vec F S1x1 .f32
  | 0, h => accAt m c ⟨0, h⟩ k0_pay3
  | n + 1, h =>
    if (n + 1) % 8 = 0 then accAt m c ⟨n + 1, h⟩ k0_pay3
    else accAt m c ⟨n + 1, h⟩ (scratchAt c n (Nat.lt_of_succ_lt h))

theorem scratchAt_first (c : Dev nD) (n : ℕ) (h : n + 1 < cfg0.N) (h0 : (n + 1) % 8 = 0) :
    scratchAt m c (n + 1) h = accAt m c ⟨n + 1, h⟩ k0_pay3 := by
  rw [scratchAt]; exact if_pos h0

theorem scratchAt_next (c : Dev nD) (n : ℕ) (h : n + 1 < cfg0.N) (h0 : ¬(n + 1) % 8 = 0) :
    scratchAt m c (n + 1) h = accAt m c ⟨n + 1, h⟩ (scratchAt m c n (Nat.lt_of_succ_lt h)) := by
  rw [scratchAt]; exact if_neg h0

/-- What the run's point-by-point record holds for the accumulator is that recursion. -/
theorem outs_scratch (c : Dev nD) : ∀ (n : ℕ) (h : n < cfg0.N), (outsAt0 m c n h).2 = scratchAt m c n h
  | 0, h => by
    rw [outsAt0_A m c ⟨0, h⟩ rfl (by dsimp only; omega)]
    dsimp only
    exact sA ..
  | n + 1, h => by
    by_cases h0 : (n + 1) % 8 = 0
    · have h1 : ¬(n + 1) % 8 = 7 := by omega
      rw [outsAt0_A m c ⟨n + 1, h⟩ h0 h1, scratchAt_first m c n h h0]
      dsimp only
      exact sA ..
    · by_cases h1 : (n + 1) % 8 = 7
      · rw [outsAt0_C m c ⟨n + 1, h⟩ h0 h1, scratchAt_next m c n h h0]
        dsimp only
        refine (sC ..).trans ?_
        exact congrArg (accAt m c ⟨n + 1, h⟩) (outs_scratch c n _)
      · rw [outsAt0_B m c ⟨n + 1, h⟩ h0 h1, scratchAt_next m c n h h0]
        dsimp only
        refine (sB ..).trans ?_
        exact congrArg (accAt m c ⟨n + 1, h⟩) (outs_scratch c n _)

/-- At the last point of a row the output block is a copy of the accumulator after that point. -/
theorem outs_block (c : Dev nD) (t : Fin cfg0.N) (h7 : t.val % 8 = 7) :
    (outsAt0 m c t.val t.isLt).1 = k0_pay2 (scratchAt m c t.val t.isLt) := by
  have h0 : ¬t.val % 8 = 0 := by omega
  obtain ⟨n, hn⟩ := t
  cases n with
  | zero => exact absurd h7 (by dsimp only; omega)
  | succ n =>
    rw [outsAt0_C m c ⟨n + 1, hn⟩ h0 h7, scratchAt_next m c n hn h0]
    dsimp only
    refine (oC ..).trans ?_
    exact congrArg (fun p => k0_pay2 (accAt m c ⟨n + 1, hn⟩ p)) (outs_scratch m c n _)

end Cert.KernelIdeal.Accum

end
-- ==== Proof.KernelRun.lean ====
/-
  The kernel program's result, read off its run.

  The region's output array has one entry per row of the grid: the accumulator after the row's last point, the only
  point of the row that writes a block back. The lines after the region add the sixteen entries to zero and divide by
  the number of pixels. This module reads the run's final state accordingly: the output array entry by entry (every
  entry lies in exactly the block its row's last point writes), then the two host lines over it; and it reads each
  input block at a pixel as the entry of the argument array the block's position names: block (s, b) of the
  prediction stack, block (b, s) of the target and mask stacks, at point 8·b + s.
-/
import proofs.«112272_j5188320493678_2_alg».proof.Proof.KernelAccum
import Idealize.ShloMosaic.Lib.Pipeline.Value
import Idealize.ShloMosaic.Lib.StableHlo.Run
import Idealize.ShloMosaic.Lib.ValueIdx

noncomputable section

namespace Cert.KernelIdeal.Run

open Cert.KernelIdeal Cert.KernelIdeal.Gen Cert.KernelIdeal.Pieces Cert.KernelIdeal.Accum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Where each window's block sits at point t = 8·b + s: the output's at row b, the prediction's at (s, b), the
    target's and the mask's at (b, s). Decided over the 128 points. -/
theorem idx_facts : ∀ t : Fin cfg0.N,
    win0_3.index t (0 : Fin 3) = t.val / 8 ∧ win0_3.index t (1 : Fin 3) = 0 ∧ win0_3.index t (2 : Fin 3) = 0
    ∧ win0_0.index t (0 : Fin 4) = t.val % 8 ∧ win0_0.index t (1 : Fin 4) = t.val / 8
    ∧ win0_0.index t (2 : Fin 4) = 0 ∧ win0_0.index t (3 : Fin 4) = 0
    ∧ win0_1.index t (0 : Fin 4) = t.val / 8 ∧ win0_1.index t (1 : Fin 4) = t.val % 8
    ∧ win0_1.index t (2 : Fin 4) = 0 ∧ win0_1.index t (3 : Fin 4) = 0
    ∧ win0_2.index t (0 : Fin 4) = t.val / 8 ∧ win0_2.index t (1 : Fin 4) = t.val % 8
    ∧ win0_2.index t (2 : Fin 4) = 0 ∧ win0_2.index t (3 : Fin 4) = 0 :=
  (by decide +kernel : ∀ t : Fin grid0.N, _)

/-! ## The input blocks at a pixel -/

/-- The prediction block of point t at pixel (h, w): entry (t mod 8, t div 8, h, w) of the prediction stack. -/
theorem blk0_apply (c : Dev nD) (t : Fin cfg0.N) (s : Fin 8) (b : Fin 16) (hs : s.val = t.val % 8) (hb : b.val = t.val / 8)
    (h w : Fin 512) :
    (iblk m c 0 t : Vec Ideal S1x1x512x512 .f32) (ix4 (0 : Fin 1) (0 : Fin 1) h w)
      = m ((c : Thread nD τ).loc main_arg0) (ix4 s b h w) := by
  obtain ⟨-, -, -, e0, e1, e2, e3, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 4) * 1 + 1 * 0 = s.val; omega
  | ⟨1, _⟩ => show win0_0.index t (1 : Fin 4) * 1 + 1 * 0 = b.val; omega
  | ⟨2, _⟩ => show win0_0.index t (2 : Fin 4) * 512 + 1 * h.val = h.val; omega
  | ⟨3, _⟩ => show win0_0.index t (3 : Fin 4) * 512 + 1 * w.val = w.val; omega

/-- The target block of point t at pixel (h, w): entry (t div 8, t mod 8, h, w) of the target stack. -/
theorem blk1_apply (c : Dev nD) (t : Fin cfg0.N) (s : Fin 8) (b : Fin 16) (hs : s.val = t.val % 8) (hb : b.val = t.val / 8)
    (h w : Fin 512) :
    (iblk m c 1 t : Vec Ideal S1x1x512x512 .f32) (ix4 (0 : Fin 1) (0 : Fin 1) h w)
      = m ((c : Thread nD τ).loc main_arg1) (ix4 b s h w) := by
  obtain ⟨-, -, -, -, -, -, -, e0, e1, e2, e3, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 4) * 1 + 1 * 0 = b.val; omega
  | ⟨1, _⟩ => show win0_1.index t (1 : Fin 4) * 1 + 1 * 0 = s.val; omega
  | ⟨2, _⟩ => show win0_1.index t (2 : Fin 4) * 512 + 1 * h.val = h.val; omega
  | ⟨3, _⟩ => show win0_1.index t (3 : Fin 4) * 512 + 1 * w.val = w.val; omega

/-- The mask block of point t at pixel (h, w): entry (t div 8, t mod 8, h, w) of the mask stack. -/
theorem blk2_apply (c : Dev nD) (t : Fin cfg0.N) (s : Fin 8) (b : Fin 16) (hs : s.val = t.val % 8) (hb : b.val = t.val / 8)
    (h w : Fin 512) :
    (iblk m c 2 t : Vec Ideal S1x1x512x512 .i32) (ix4 (0 : Fin 1) (0 : Fin 1) h w)
      = m ((c : Thread nD τ).loc main_arg2) (ix4 b s h w) := by
  obtain ⟨-, -, -, -, -, -, -, -, -, -, -, e0, e1, e2, e3⟩ := idx_facts t
  unfold iblk
  rw [View.read_apply]
  show V m c main_arg2 _ = _
  rw [V_main_arg2]
  refine congrArg _ (funext fun a => Fin.ext ?_)
  match a with
  | ⟨0, _⟩ => show win0_2.index t (0 : Fin 4) * 1 + 1 * 0 = b.val; omega
  | ⟨1, _⟩ => show win0_2.index t (1 : Fin 4) * 1 + 1 * 0 = s.val; omega
  | ⟨2, _⟩ => show win0_2.index t (2 : Fin 4) * 512 + 1 * h.val = h.val; omega
  | ⟨3, _⟩ => show win0_2.index t (3 : Fin 4) * 512 + 1 * w.val = w.val; omega

/-! ## The output array -/

/-- The accumulator's value does not depend on how its point is written. -/
theorem scratchAt_congr (c : Dev nD) {n n' : ℕ} (e : n = n') (h : n < cfg0.N) (h' : n' < cfg0.N) :
    scratchAt m c n h = scratchAt m c n' h' := by subst e; rfl

/-- A 1×1 array has one index. -/
instance : Subsingleton S1x1.Idx := ⟨fun a b => funext fun d => by
  match d with
  | ⟨0, _⟩ =>
    refine Fin.ext ?_
    show (a 0).val = (b 0).val
    have h1 : (a 0).val < 1 := (a 0).isLt
    have h2 : (b 0).val < 1 := (b 0).isLt
    omega
  | ⟨1, _⟩ =>
    refine Fin.ext ?_
    show (a 1).val = (b 1).val
    have h1 : (a 1).val < 1 := (a 1).isLt
    have h2 : (b 1).val < 1 := (b 1).isLt
    omega⟩

/-- The 1×1×1 copy of a 1×1 array reads its one entry. -/
theorem copy_apply (v : Vec Ideal S1x1 .f32) (j : S1x1x1.Idx) : k0_pay2 v j = v (ix2 (0 : Fin 1) (0 : Fin 1)) := by
  unfold k0_pay2 shapeCast
  exact congrArg v (Subsingleton.elim _ _)

/-- The row totals: entry b of the output array is the accumulator after the last point, 8·b + 7, of row b. -/
def rowTotals (c : Dev nD) : Buf (Elt Ideal) ((c : Thread nD τ).loc main_v0) := fun i =>
  scratchAt m c (8 * (i 0).val + 7)
    (by have h : (i 0).val < 16 := (i 0).isLt; rw [show cfg0.N = 128 from N_0]; omega) (ix2 (0 : Fin 1) (0 : Fin 1))

/-- What a row's last point writes back is that row's block of the row totals. -/
theorem flushed_eq (c : Dev nD) (t : Fin cfg0.N) (hf : (cfg0.win 3).flush t = true) :
    (dats m 0 c).flushed 3 t = ((cfg0.win 3).blk t).view.read (Elt Ideal) (rowTotals m c) := by
  have h7 : t.val % 8 = 7 := (flush0_3 t).mp hf
  obtain ⟨e0, -⟩ := idx_facts t
  show (cfg0.win 3).cut (grid0.coords t) ((dats m 0 c).after 3 t) = _
  rw [after0_3, outs_block m c t h7]
  funext j
  rw [View.read_apply]
  show k0_pay2 (scratchAt m c t.val t.isLt) j = rowTotals m c (((cfg0.win 3).blk t).view.emb j)
  rw [copy_apply]
  unfold rowTotals
  refine congrFun (scratchAt_congr m c ?_ _ _) _
  show t.val = 8 * (win0_3.index t (0 : Fin 3) * 1 + 1 * (j 0).val) + 7
  have hj : (j 0).val < 1 := (j 0).isLt
  omega

/-- An entry of the output array is in point t's block iff each coordinate is in the block's range on its axis. -/
theorem mem_blk (t : Fin cfg0.N) (i : S16x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v0).slice (win0_3.rect t)).set ↔ _
  rw [View.set_slice_whole, Rect.mem_set_unit]
  exact Iff.rfl

/-- So the output array ends at the row totals: entry b is in the block that point 8·b + 7 writes back. -/
theorem final (c : Dev nD) : (dats m 0 c).arrAt 3 cfg0.N = rowTotals m c :=
  (dats m 0 c).arrAt_eq_of_cover 3 (rowTotals m c) (fun t hf => flushed_eq m c t hf) fun i => by
    have hN : cfg0.N = 128 := N_0
    have h0 : (i 0).val < 16 := (i 0).isLt
    have h1 : (i 1).val < 1 := (i 1).isLt
    have h2 : (i 2).val < 1 := (i 2).isLt
    have ht : 8 * (i 0).val + 7 < cfg0.N := by omega
    obtain ⟨e0, e1, e2, -⟩ := idx_facts ⟨8 * (i 0).val + 7, ht⟩
    refine ⟨⟨8 * (i 0).val + 7, ht⟩, (flush0_3 _).mpr (by show (8 * (i 0).val + 7) % 8 = 7; omega), ?_⟩
    rw [mem_blk]
    intro a
    match a with
    | ⟨0, _⟩ =>
      show win0_3.index ⟨8 * (i 0).val + 7, ht⟩ (0 : Fin 3) * 1 ≤ (i 0).val
        ∧ (i 0).val < win0_3.index ⟨8 * (i 0).val + 7, ht⟩ (0 : Fin 3) * 1 + 1
      have e0' : win0_3.index ⟨8 * (i 0).val + 7, ht⟩ (0 : Fin 3) = (8 * (i 0).val + 7) / 8 := e0
      omega
    | ⟨1, _⟩ =>
      show win0_3.index ⟨8 * (i 0).val + 7, ht⟩ (1 : Fin 3) * 1 ≤ (i 1).val
        ∧ (i 1).val < win0_3.index ⟨8 * (i 0).val + 7, ht⟩ (1 : Fin 3) * 1 + 1
      omega
    | ⟨2, _⟩ =>
      show win0_3.index ⟨8 * (i 0).val + 7, ht⟩ (2 : Fin 3) * 1 ≤ (i 2).val
        ∧ (i 2).val < win0_3.index ⟨8 * (i 0).val + 7, ht⟩ (2 : Fin 3) * 1 + 1
      omega

/-! ## The lines after the region, and the run -/

/-- The program's result: the row totals added to zero, divided by the pixel count's word. -/
def result (c : Dev nD) : Buf (Elt Ideal) ((c : Thread nD τ).loc main_v2) :=
  Host.divf (F := Ideal)
    (Host.reduceAdd (F := Ideal) (rowTotals m c) (constant (F := Ideal) S_ .f32 0x00000000#32) reducesTo_S16x1x1_S_d0_1_2 h_S_)
    (constant (F := Ideal) S_ .f32 0x4C000000#32)

/-- What the lines after the region leave in the result buffer. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0)
      = rowTotals m c from (Pipeline.withArrays_arr spec0 launch0.win.arr_inj c _ _ 3).trans (final m c)]
  rfl

/-- The result buffer is neither scoped nor an array of the region: the lines after the region decide it. -/
theorem result_bypasses : main_v2 ∈ Pipeline.restRefs sig (cfgs 0).spec :=
  Pipeline.mem_restRefs_of main_v2 rfl (by decide)

/-- THE RUN, READ: every weakly fair execution ends with the result buffer at `result` and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v2 result_bypasses).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Run

end
-- ==== Proof.LossAlgebra.lean ====
/-
  The order algebra behind the weighted neighbourhood loss, on the extended reals.

  A pixel's loss is the smallest weighted distance |t − p| · W over the 3×3 neighbourhood of the prediction, a
  neighbour outside the picture counting as +∞. One side multiplies the weight into every distance before taking the
  minimum, the other takes the minimum of the bare distances and multiplies once. Both agree for a weight W ≥ 0,
  because multiplying by a nonnegative extended real is monotone — so it commutes with max (hence with the absolute
  value max x (−x)) and with min — and because a neighbour masked out contributes +∞ to a minimum, that is, nothing,
  on either side. No finiteness is needed: the laws hold at the infinities too.
-/
import Idealize.ShloMosaic.PureOps.Ideal
import Idealize.ShloMosaic.Lib.ValueIdx

namespace Cert.LossAlgebra

open Idealize.ShloMosaic

/-- |x · W| = W · |x| for W ≥ 0, the absolute value written max y (−y). -/
theorem abs_mul_weight (x W : EReal) (hW : 0 ≤ W) : max (x * W) (-(x * W)) = W * max x (-x) := by
  rw [(monotone_mul_left_of_nonneg hW).map_max, mul_comm x W, mul_neg]

/-- W · min(a, b or +∞) = min(W · a, W · b or +∞) for W ≥ 0: where the candidate is masked out both sides keep the
    running minimum, where it is not the product is monotone. -/
theorem weight_mul_min_select (W a b : EReal) (hW : 0 ≤ W) (c : BitVec 1) :
    W * min a (Scalar.select c b ⊤) = min (W * a) (Scalar.select c (W * b) ⊤) := by
  unfold Scalar.select
  split
  · exact (monotone_mul_left_of_nonneg hW).map_min
  · rw [min_top_right, min_top_right]

/-- A masked candidate matters only where its mask is set. -/
theorem min_select_congr (a b b' : EReal) (c : BitVec 1) (h : c = 1#1 → b = b') :
    min a (Scalar.select c b ⊤) = min a (Scalar.select c b' ⊤) := by
  unfold Scalar.select
  split
  · rename_i hc; rw [h hc]
  · rfl

/-- A candidate no smaller than the running minimum leaves it unchanged, masked or not. -/
theorem min_select_absorb (a b : EReal) (c : BitVec 1) (h : a ≤ b) : min a (Scalar.select c b ⊤) = a := by
  unfold Scalar.select
  split
  · exact min_eq_left h
  · exact min_top_right a

/-- The running minimum never grows. -/
theorem min_select_le (a b : EReal) (c : BitVec 1) : min a (Scalar.select c b ⊤) ≤ a := min_le_left _ _

end Cert.LossAlgebra
-- ==== Proof.Weights.lean ====
/-
  The balancing weight of a pixel, on the extended reals, and its sign.

  The weight of a pixel with target value t and mask word k is
      (1 + 1·[t ≥ 2] + 3·[t ≥ 5] + 5·[t ≥ 10] + 20·[t ≥ 30]) · k
  where [·] is 1 if the comparison holds and 0 otherwise, and the mask word is read as a signed integer. Every float
  literal is a nonnegative number and every indicator is 0 or 1, so the bracket is nonnegative; the product with the
  mask is therefore nonnegative as soon as the mask word is — which is what a mask taking the values 0 and 1 gives.
-/
import Idealize.ShloMosaic.PureOps.Ideal
import Idealize.ShloMosaic.PureOps.Ideal.Laws

noncomputable section

namespace Cert.Weights

open Idealize.ShloMosaic

/-- The f32 word of 1.0 is the number 1. -/
theorem lit_one : Ideal.ofBits .f32 0x3F800000#32 = ((1 : ℝ) : EReal) := by
  simp [Ideal.ofBits, Ideal.ieee, -EReal.coe_mul]; norm_num
/-- The f32 word of 3.0 is the number 3. -/
theorem lit_three : Ideal.ofBits .f32 0x40400000#32 = ((3 : ℝ) : EReal) := by
  simp [Ideal.ofBits, Ideal.ieee, -EReal.coe_mul]; norm_num
/-- The f32 word of 5.0 is the number 5. -/
theorem lit_five : Ideal.ofBits .f32 0x40A00000#32 = ((5 : ℝ) : EReal) := by
  simp [Ideal.ofBits, Ideal.ieee, -EReal.coe_mul]; norm_num
/-- The f32 word of 20.0 is the number 20. -/
theorem lit_twenty : Ideal.ofBits .f32 0x41A00000#32 = ((20 : ℝ) : EReal) := by
  simp [Ideal.ofBits, Ideal.ieee, -EReal.coe_mul]; norm_num

/-- A comparison's bit read as an unsigned number: 0 or 1, as an extended real. -/
def ind (b : BitVec 1) : EReal := ((b.toNat : ℝ) : EReal)

theorem ind_nonneg (b : BitVec 1) : 0 ≤ ind b := by
  unfold ind; exact_mod_cast Nat.zero_le _

/-- The weight of a pixel from its target value and its mask word. -/
def wgt (t : EReal) (k : BitVec 32) : EReal :=
  ((((Ideal.ofBits .f32 0x3F800000#32
        + Ideal.ofBits .f32 0x3F800000#32 * ind (Ideal.cmp .oge t (Ideal.ofBits .f32 0x40000000#32)))
      + Ideal.ofBits .f32 0x40400000#32 * ind (Ideal.cmp .oge t (Ideal.ofBits .f32 0x40A00000#32)))
    + Ideal.ofBits .f32 0x40A00000#32 * ind (Ideal.cmp .oge t (Ideal.ofBits .f32 0x41200000#32)))
  + Ideal.ofBits .f32 0x41A00000#32 * ind (Ideal.cmp .oge t (Ideal.ofBits .f32 0x41F00000#32)))
  * ((k.toInt : ℝ) : EReal)

/-- A nonnegative mask word gives a nonnegative weight. -/
theorem wgt_nonneg (t : EReal) (k : BitVec 32) (hk : 0 ≤ k.toInt) : 0 ≤ wgt t k := by
  unfold wgt
  have h1 : (0 : EReal) ≤ Ideal.ofBits .f32 0x3F800000#32 := by rw [lit_one]; exact_mod_cast zero_le_one
  have h3 : (0 : EReal) ≤ Ideal.ofBits .f32 0x40400000#32 := by rw [lit_three]; exact_mod_cast (by norm_num : (0:ℝ) ≤ 3)
  have h5 : (0 : EReal) ≤ Ideal.ofBits .f32 0x40A00000#32 := by rw [lit_five]; exact_mod_cast (by norm_num : (0:ℝ) ≤ 5)
  have h20 : (0 : EReal) ≤ Ideal.ofBits .f32 0x41A00000#32 := by rw [lit_twenty]; exact_mod_cast (by norm_num : (0:ℝ) ≤ 20)
  have hm : (0 : EReal) ≤ ((k.toInt : ℝ) : EReal) := by exact_mod_cast hk
  exact mul_nonneg (add_nonneg (add_nonneg (add_nonneg (add_nonneg h1 (mul_nonneg h1 (ind_nonneg _)))
    (mul_nonneg h3 (ind_nonneg _))) (mul_nonneg h5 (ind_nonneg _))) (mul_nonneg h20 (ind_nonneg _))) hm

/-- A one-bit word widened to 32 bits and read signed is the bit read unsigned. -/
theorem toInt_setWidth_bit : ∀ b : BitVec 1, (b.setWidth 32).toInt = (b.toNat : ℤ) := by decide

/-- So converting the widened bit as a signed integer gives the indicator. -/
theorem sitofp_widened (b : BitVec 1) : ((((b.setWidth 32).toInt : ℤ) : ℝ) : EReal) = ind b := by
  unfold ind; rw [toInt_setWidth_bit]; norm_cast

end Cert.Weights

end
-- ==== Proof.Shifts.lean ====
/-
  A 512×512 picture shifted by one pixel, two ways, and the masks that say where the shift stays inside.

  Rolling a picture by s along an axis puts at position j the entry that was at j − s, around the end. A shift of the
  picture by x ∈ {−1, 0, +1} along an axis is the roll by 1, 0, 511. The position j + x is inside the picture exactly
  when 0 ≤ j + x < 512, a test made on 32-bit words: for x = −1 it says 1 ≤ j, for x = 0 it always holds, for x = +1
  it says j + 1 < 512. Where the test holds the rolled entry is the entry at j + x itself: nothing came around the end.
-/
import Idealize.ShloMosaic.Lib.KernelVsHost

namespace Cert.Shifts

open Idealize.ShloMosaic Idealize.ShloMosaic.ValueIdx

/-- The 512×512 picture's shape. -/
abbrev S2 : Shape := ⟨2, ![512, 512]⟩

/-- The word test 0 ≤ j + x < 512 for the offset word x, at coordinate j. -/
def ok (x : BitVec 32) (j : Fin 512) : BitVec 1 :=
  IntOp.andi (IntOp.cmpi .sge (IntOp.addi (BitVec.ofNat 32 j.val) x) 0#32)
    (IntOp.cmpi .slt (IntOp.addi (BitVec.ofNat 32 j.val) x) 512#32)

/-- For the offset −1 the test says the coordinate is at least 1. -/
theorem ok_neg : ∀ j : Fin 512, ok 4294967295#32 j = 1#1 ↔ 1 ≤ j.val := by decide +kernel
/-- For the offset 0 the test always holds. -/
theorem ok_zero : ∀ j : Fin 512, ok 0#32 j = 1#1 := by decide +kernel
/-- For the offset +1 the test says the next coordinate is still inside. -/
theorem ok_pos : ∀ j : Fin 512, ok 1#32 j = 1#1 ↔ j.val + 1 < 512 := by decide +kernel

/-- Both of two one-bit tests hold exactly when their conjunction bit is set. -/
theorem andi_eq_one : ∀ a b : BitVec 1, IntOp.andi a b = 1#1 ↔ a = 1#1 ∧ b = 1#1 := by decide

/-- The coordinate a roll by s reads at j: j − s, around the end. -/
def back (s : Nat) (j : Fin 512) : Fin 512 := ⟨(j.val + 512 - s % 512) % 512, Nat.mod_lt _ (by norm_num)⟩

theorem back_zero (j : Fin 512) : back 0 j = j := Fin.ext (by
  show (j.val + 512 - 0 % 512) % 512 = j.val
  have := j.isLt; omega)
/-- A roll by 1 reads the previous coordinate, where there is one. -/
theorem back_one_val (j : Fin 512) (h : 1 ≤ j.val) : (back 1 j).val + 1 = j.val := by
  show (j.val + 512 - 1 % 512) % 512 + 1 = j.val
  have := j.isLt; omega
/-- A roll by 511 reads the next coordinate, where there is one. -/
theorem back_511_val (j : Fin 512) (h : j.val + 1 < 512) : (back 511 j).val = j.val + 1 := by
  show (j.val + 512 - 511 % 512) % 512 = j.val + 1
  omega

variable {α : Type}

/-- A picture rolled by sa along its rows, then by sb along its columns, read at (h, w). -/
theorem rot2_apply (sa sb : BitVec 32) (x : S2.Idx → α) (h0 : S2.Rotates 0 none) (h1 : S2.Rotates 1 none) (h w : Fin 512) :
    dynamicRotate 1 sb none (dynamicRotate 0 sa none x h0) h1 (ix2 h w) = x (ix2 (back sa.toNat h) (back sb.toNat w)) := by
  refine (dynamicRotate_apply (1 : Fin 2) sb _ h1 (ix2 h w) (ix2 h (back sb.toNat w)) (fun b => ?_)).trans ?_
  · match b with
    | ⟨0, _⟩ => rfl
    | ⟨1, _⟩ => rfl
  · refine dynamicRotate_apply (0 : Fin 2) sa x h0 (ix2 h (back sb.toNat w)) (ix2 (back sa.toNat h) (back sb.toNat w)) (fun b => ?_)
    match b with
    | ⟨0, _⟩ => rfl
    | ⟨1, _⟩ => rfl

/-- The row counter of the picture at (h, w) is the word of h. -/
theorem iota_rows (hI : S2.Iotas .tc 32 [0]) (h w : Fin 512) : iota .tc S2 32 [0] hI (ix2 h w) = BitVec.ofNat 32 h.val := by
  show BitVec.ofNat 32 (0 * 512 + h.val) = _
  rw [Nat.zero_mul, Nat.zero_add]
/-- The column counter of the picture at (h, w) is the word of w. -/
theorem iota_cols (hI : S2.Iotas .tc 32 [1]) (h w : Fin 512) : iota .tc S2 32 [1] hI (ix2 h w) = BitVec.ofNat 32 w.val := by
  show BitVec.ofNat 32 (0 * 512 + w.val) = _
  rw [Nat.zero_mul, Nat.zero_add]

end Cert.Shifts
-- ==== Proof.TileLoss.lean ====
/-
  One pixel's loss, written the two ways the two programs compute it, and their equality.

  At pixel (h, w) of a 512×512 picture with target value t, weight W and prediction picture P:

  * the factored form multiplies once: W · min over the 3×3 neighbourhood of |t − P(h+x, w+y)|, the centre always
    present, the eight neighbours each replaced by +∞ where (h+x, w+y) falls outside the picture; a neighbour is read
    from the picture rolled by (−x, −y), which is P(h+x, w+y) exactly where the position is inside;
  * the distributed form takes the minimum of |(t − q)·W| over the centre and then over all nine offsets in row-major
    order (the centre a second time), q the zero-padded picture's entry, again +∞ outside (the fill value is kept as a
    parameter, so that the program's word for +∞ is read once, where the two forms are joined).

  For W ≥ 0 the two are equal: multiplication by W is monotone, so it moves inside the absolute value and inside each
  step of the running minimum; a masked-out candidate is +∞ on both sides whatever the entries are; and the centre's
  second appearance is absorbed because the running minimum is already no larger than the centre's term.
-/
import proofs.«112272_j5188320493678_2_alg».proof.Proof.LossAlgebra
import proofs.«112272_j5188320493678_2_alg».proof.Proof.Weights
import proofs.«112272_j5188320493678_2_alg».proof.Proof.Shifts

noncomputable section

namespace Cert.TileLoss

open Idealize.ShloMosaic Idealize.ShloMosaic.ValueIdx Cert.Shifts Cert.LossAlgebra

/-- |t − p| on the extended reals. -/
def dist (t p : EReal) : EReal := max (t - p) (-(t - p))

/-- |(t − q) · W| on the extended reals. -/
def wdist (t q W : EReal) : EReal := max ((t - q) * W) (-((t - q) * W))

theorem weight_mul_dist (t p W : EReal) (hW : 0 ≤ W) : W * dist t p = wdist t p W :=
  (abs_mul_weight (t - p) W hW).symm

/-- A neighbour's candidate in the factored form: the distance to the rolled picture's entry, or +∞ outside. -/
def kc (t : EReal) (P : S2.Idx → EReal) (h w : Fin 512) (cx cy : BitVec 32) (sx sy : Nat) : EReal :=
  Scalar.select (IntOp.andi (ok cx h) (ok cy w)) (dist t (P (ix2 (back sx h) (back sy w)))) ⊤

/-- The factored form of a pixel's loss. -/
def kpix (W t : EReal) (P : S2.Idx → EReal) (h w : Fin 512) : EReal :=
  W * min (min (min (min (min (min (min (min (dist t (P (ix2 h w)))
    (kc t P h w 4294967295#32 4294967295#32 1 1))
    (kc t P h w 4294967295#32 0#32 1 0))
    (kc t P h w 4294967295#32 1#32 1 511))
    (kc t P h w 0#32 4294967295#32 0 1))
    (kc t P h w 0#32 1#32 0 511))
    (kc t P h w 1#32 4294967295#32 511 1))
    (kc t P h w 1#32 0#32 511 0))
    (kc t P h w 1#32 1#32 511 511)

/-- A candidate in the distributed form: the weighted distance to the padded picture's entry, or the fill value
    (+∞ in the program) outside. -/
def rc (fill t W q : EReal) (h w : Fin 512) (cx cy : BitVec 32) : EReal :=
  Scalar.select (IntOp.andi (ok cx h) (ok cy w)) (wdist t q W) fill

/-- The distributed form of a pixel's loss: the unshifted prediction entry p0 first, then the nine entries q x y of the
    padded picture around the pixel, in row-major order. -/
def rpix (fill W t p0 : EReal) (q : Fin 3 → Fin 3 → EReal) (h w : Fin 512) : EReal :=
  min (min (min (min (min (min (min (min (min (wdist t p0 W)
    (rc fill t W (q 0 0) h w 4294967295#32 4294967295#32))
    (rc fill t W (q 0 1) h w 4294967295#32 0#32))
    (rc fill t W (q 0 2) h w 4294967295#32 1#32))
    (rc fill t W (q 1 0) h w 0#32 4294967295#32))
    (rc fill t W (q 1 1) h w 0#32 0#32))
    (rc fill t W (q 1 2) h w 0#32 1#32))
    (rc fill t W (q 2 0) h w 1#32 4294967295#32))
    (rc fill t W (q 2 1) h w 1#32 0#32))
    (rc fill t W (q 2 2) h w 1#32 1#32)

/-- One step: the weight moves into a masked candidate of the running minimum, and the candidate's entry may be
    replaced by any entry that agrees with it where the mask is set. -/
theorem step (W t a : EReal) (hW : 0 ≤ W) (P : S2.Idx → EReal) (h w : Fin 512) (cx cy : BitVec 32) (sx sy : Nat) (q : EReal)
    (hq : IntOp.andi (ok cx h) (ok cy w) = 1#1 → P (ix2 (back sx h) (back sy w)) = q) :
    W * min a (kc t P h w cx cy sx sy) = min (W * a) (rc ⊤ t W q h w cx cy) := by
  unfold kc rc
  rw [weight_mul_min_select W a _ hW, weight_mul_dist _ _ _ hW]
  exact min_select_congr _ _ _ _ fun hc => by rw [hq hc]

/-- The two forms agree for a nonnegative weight, when the padded picture's entries are the rolled picture's wherever
    the offset position is inside. -/
theorem kpix_eq_rpix (W t p0 : EReal) (hW : 0 ≤ W) (P : S2.Idx → EReal) (q : Fin 3 → Fin 3 → EReal) (h w : Fin 512)
    (h11 : P (ix2 h w) = p0) (hc11 : q 1 1 = p0)
    (h00 : IntOp.andi (ok 4294967295#32 h) (ok 4294967295#32 w) = 1#1 → P (ix2 (back 1 h) (back 1 w)) = q 0 0)
    (h01 : IntOp.andi (ok 4294967295#32 h) (ok 0#32 w) = 1#1 → P (ix2 (back 1 h) (back 0 w)) = q 0 1)
    (h02 : IntOp.andi (ok 4294967295#32 h) (ok 1#32 w) = 1#1 → P (ix2 (back 1 h) (back 511 w)) = q 0 2)
    (h10 : IntOp.andi (ok 0#32 h) (ok 4294967295#32 w) = 1#1 → P (ix2 (back 0 h) (back 1 w)) = q 1 0)
    (h12 : IntOp.andi (ok 0#32 h) (ok 1#32 w) = 1#1 → P (ix2 (back 0 h) (back 511 w)) = q 1 2)
    (h20 : IntOp.andi (ok 1#32 h) (ok 4294967295#32 w) = 1#1 → P (ix2 (back 511 h) (back 1 w)) = q 2 0)
    (h21 : IntOp.andi (ok 1#32 h) (ok 0#32 w) = 1#1 → P (ix2 (back 511 h) (back 0 w)) = q 2 1)
    (h22 : IntOp.andi (ok 1#32 h) (ok 1#32 w) = 1#1 → P (ix2 (back 511 h) (back 511 w)) = q 2 2) :
    kpix W t P h w = rpix ⊤ W t p0 q h w := by
  unfold kpix rpix
  rw [step W t _ hW P h w _ _ _ _ _ h22, step W t _ hW P h w _ _ _ _ _ h21, step W t _ hW P h w _ _ _ _ _ h20,
    step W t _ hW P h w _ _ _ _ _ h12, step W t _ hW P h w _ _ _ _ _ h10, step W t _ hW P h w _ _ _ _ _ h02,
    step W t _ hW P h w _ _ _ _ _ h01, step W t _ hW P h w _ _ _ _ _ h00, weight_mul_dist _ _ _ hW, h11]
  -- the centre's second appearance changes nothing
  have hc : min (min (min (min (wdist t p0 W) (rc ⊤ t W (q 0 0) h w 4294967295#32 4294967295#32))
      (rc ⊤ t W (q 0 1) h w 4294967295#32 0#32)) (rc ⊤ t W (q 0 2) h w 4294967295#32 1#32))
      (rc ⊤ t W (q 1 0) h w 0#32 4294967295#32) ≤ wdist t p0 W :=
    (min_le_left _ _).trans ((min_le_left _ _).trans ((min_le_left _ _).trans (min_le_left _ _)))
  have ha : min (min (min (min (min (wdist t p0 W) (rc ⊤ t W (q 0 0) h w 4294967295#32 4294967295#32))
      (rc ⊤ t W (q 0 1) h w 4294967295#32 0#32)) (rc ⊤ t W (q 0 2) h w 4294967295#32 1#32))
      (rc ⊤ t W (q 1 0) h w 0#32 4294967295#32)) (rc ⊤ t W (q 1 1) h w 0#32 0#32)
      = min (min (min (min (wdist t p0 W) (rc ⊤ t W (q 0 0) h w 4294967295#32 4294967295#32))
      (rc ⊤ t W (q 0 1) h w 4294967295#32 0#32)) (rc ⊤ t W (q 0 2) h w 4294967295#32 1#32))
      (rc ⊤ t W (q 1 0) h w 0#32 4294967295#32) := by
    rw [hc11]
    unfold rc
    exact min_select_absorb _ _ _ hc
  rw [ha]

end Cert.TileLoss

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.LibRowReduce.lean ====
/-
  Reductions along the rows of a matrix, read at a row. At the exact values a lane reduction of an a×b matrix over its
  second axis is, at row r, the sum (for an add reduction) or the fold of max from the accumulator's value (for a
  maximum reduction) of the b entries (r, k) of that row; the host's reduce over the same axis is the same fold from its
  initial value, and its sum the initial value plus the same sum. A fold of max that starts at a value is at least that
  value, so taking the maximum with the start once more changes nothing.
-/
import Idealize.ShloMosaic.PureOps.Ideal.Laws
import Idealize.ShloMosaic.Lib.ValueIdx

noncomputable section

namespace RowReduce

open Idealize.ShloMosaic Idealize.ShloMosaic.ValueIdx

variable {a b : ℕ}

/-- The index a reduction over axis 1 reads at row `r` and position `k` is `(r, k)`. -/
theorem lift_eq (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A lane sum over the second axis, at row `r`: the sum of that row's entries. -/
theorem laneSum_at (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_eq h r k))

/-- A lane maximum over the second axis, at row `r`: the fold of max over that row's entries from the accumulator's value. -/
theorem laneMax_at (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (Finset.fold max (Ideal.ofBits .f32 acc) · (Finset.univ : Finset (Fin b)))
      (funext fun k => congrArg src (lift_eq h r k)))

/-- The host's sum over the second axis, at row `r`: the initial value plus the sum of that row's entries. -/
theorem hostSum_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_eq h r k))

/-- The host's maximum over the second axis, at row `r`: the fold of max over that row's entries from the initial value. -/
theorem hostMax_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) :=
  (Host.reduce_eq_fold_single (FloatOps.maximumf (F := Ideal) (φ := .f32)) x init h' h hu (ix1 r)).trans
    (congrArg (Finset.fold max (init (Shape.Idx.first hu)) · (Finset.univ : Finset (Fin b)))
      (funext fun k => congrArg x (lift_eq h r k)))

/-- A fold of max from `m₀` is at least `m₀`: the maximum with `m₀` once more is the fold itself. -/
theorem max_fold_self {ι : Type} (s : Finset ι) (m₀ : EReal) (f : ι → EReal) :
    max m₀ (s.fold max m₀ f) = s.fold max m₀ f :=
  max_eq_right ((Finset.le_fold_max (s := s) (b := m₀) (f := f) (c := m₀)).2 (Or.inl le_rfl))

end RowReduce

end
-- ==== Proof.LibLeadingUnits.lean ====
/-
  Shape casts that drop or add two leading axes of extent one, read at an index written by coordinates.

  A shape cast keeps the row-major position of every element, and a coordinate on an axis of extent one is zero, so
  an array [1, 1, a, b] cast to [a, b] reads (i, j) at (u, v, i, j), and an array [a, b] cast to [1, 1, a, b] reads
  (u, v, i, j) at (i, j), whatever the unit coordinates u and v.
-/
import Idealize.ShloMosaic.Lib.ValueLayout

namespace Cert.LibLeadingUnits

open Idealize.ShloMosaic Idealize.ShloMosaic.ValueIdx

variable {α : Type}

/-- A [1, 1, a, b] array cast to [a, b] reads, at (i, j), the operand at (u, v, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (u v : Fin 1) (i : Fin a) (j : Fin b) :
    shapeCast ⟨2, ![a, b]⟩ x h (ix2 i j) = x (ix4 u v i j) :=
  shapeCast_apply x h _ _ (by
    have hu : u.val = 0 := by omega
    have hv : v.val = 0 := by omega
    rw [Shape.rowMajor_val_four, Shape.rowMajor_val_two]
    show ((u.val * 1 + v.val) * a + i.val) * b + j.val = i.val * b + j.val
    simp [hu, hv])

/-- An [a, b] array cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp [hu, hv])

end Cert.LibLeadingUnits
-- ==== Proof.LibIndexSums.lean ====
/-
  Sums over the index sets of small-rank arrays, as iterated sums over the coordinates.

  An index of a rank-4 array [n0, n1, n2, n3] is the same thing as its four coordinates, so a sum over all indices, in
  any commutative additive monoid, is the fourfold sum over the coordinates; likewise at rank 3; and a coordinate that
  ranges over a single value contributes a one-term sum.
-/
import Idealize.ShloMosaic.Lib.ValueIdx

namespace IndexSums

open Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the threefold sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a one-element coordinate range is its one term. -/
theorem sum_fin_one {M : Type*} [AddCommMonoid M] (f : Fin 1 → M) : ∑ u : Fin 1, f u = f 0 :=
  Fin.sum_univ_one f

end IndexSums
-- ==== Proof.KernelPixel.lean ====
/-
  The tile total: what one grid point adds to the accumulator, as a sum of pixel losses.

  A point's three blocks are one 512×512 picture each: the prediction P, the target T and the mask K. The body forms,
  pixel by pixel, the weight W(T, K) times the smallest distance |T − P'| over the eight shifted copies P' of the
  prediction and P itself (a shifted copy counting as +∞ where the shift leaves the picture), sums each row over its
  lanes, sums the row totals, and adds the result to the accumulator. Read at the accumulator's one entry this is the
  previous entry plus the double sum over rows and lanes of the factored pixel loss.
-/
import proofs.«112272_j5188320493678_2_alg».proof.Proof.Gen.KernelIdeal.Skeleton
import proofs.«112272_j5188320493678_2_alg».proof.Proof.TileLoss
import proofs.«112272_j5188320493678_2_alg».proof.Proof.LibKeepdimsColumn
import proofs.«112272_j5188320493678_2_alg».proof.Proof.LibRowReduce
import proofs.«112272_j5188320493678_2_alg».proof.Proof.LibLeadingUnits
import proofs.«112272_j5188320493678_2_alg».proof.Proof.LibIndexSums
import proofs.«112272_j5188320493678_2_alg».proof.Proof.KernelPieces

noncomputable section

namespace Cert.KernelIdeal.Pixel

open Cert.KernelIdeal Cert.KernelIdeal.Gen Cert.KernelIdeal.Pieces Cert.Shifts Cert.TileLoss Cert.Weights
open Idealize.ShloMosaic Idealize.ShloMosaic.ValueIdx

/-- The column counter of the picture. -/
abbrev cols : IVec S512x512 32 := iota Kind.tc S512x512 32 [1] iota_S512x512_d1_w32

/-! ## The six validity masks, at a pixel -/

theorem rowMask_neg (h w : Fin 512) : k0_pay10 (ix2 h w) = ok 4294967295#32 h := by
  unfold k0_pay10
  show IntOp.andi (IntOp.cmpi .sge (IntOp.addi (iota .tc S512x512 32 [0] iota_S512x512_d0_w32 (ix2 h w)) 4294967295#32) 0#32)
      (IntOp.cmpi .slt (IntOp.addi (iota .tc S512x512 32 [0] iota_S512x512_d0_w32 (ix2 h w)) 4294967295#32) 512#32) = _
  rw [iota_rows]; rfl

theorem rowMask_zero (h w : Fin 512) : k0_pay11 (ix2 h w) = ok 0#32 h := by
  unfold k0_pay11
  show IntOp.andi (IntOp.cmpi .sge (IntOp.addi (iota .tc S512x512 32 [0] iota_S512x512_d0_w32 (ix2 h w)) 0#32) 0#32)
      (IntOp.cmpi .slt (IntOp.addi (iota .tc S512x512 32 [0] iota_S512x512_d0_w32 (ix2 h w)) 0#32) 512#32) = _
  rw [iota_rows]; rfl

theorem rowMask_pos (h w : Fin 512) : k0_pay12 (ix2 h w) = ok 1#32 h := by
  unfold k0_pay12
  show IntOp.andi (IntOp.cmpi .sge (IntOp.addi (iota .tc S512x512 32 [0] iota_S512x512_d0_w32 (ix2 h w)) 1#32) 0#32)
      (IntOp.cmpi .slt (IntOp.addi (iota .tc S512x512 32 [0] iota_S512x512_d0_w32 (ix2 h w)) 1#32) 512#32) = _
  rw [iota_rows]; rfl

theorem colMask_neg (h w : Fin 512) : k0_pay13 (ix2 h w) = ok 4294967295#32 w := by
  unfold k0_pay13
  show IntOp.andi (IntOp.cmpi .sge (IntOp.addi (iota .tc S512x512 32 [1] iota_S512x512_d1_w32 (ix2 h w)) 4294967295#32) 0#32)
      (IntOp.cmpi .slt (IntOp.addi (iota .tc S512x512 32 [1] iota_S512x512_d1_w32 (ix2 h w)) 4294967295#32) 512#32) = _
  rw [iota_cols]; rfl

theorem colMask_zero (h w : Fin 512) : k0_pay14 cols (ix2 h w) = ok 0#32 w := by
  unfold k0_pay14
  show IntOp.andi (IntOp.cmpi .sge (IntOp.addi (iota .tc S512x512 32 [1] iota_S512x512_d1_w32 (ix2 h w)) 0#32) 0#32)
      (IntOp.cmpi .slt (IntOp.addi (iota .tc S512x512 32 [1] iota_S512x512_d1_w32 (ix2 h w)) 0#32) 512#32) = _
  rw [iota_cols]; rfl

theorem colMask_pos (h w : Fin 512) : k0_pay15 cols (ix2 h w) = ok 1#32 w := by
  unfold k0_pay15
  show IntOp.andi (IntOp.cmpi .sge (IntOp.addi (iota .tc S512x512 32 [1] iota_S512x512_d1_w32 (ix2 h w)) 1#32) 0#32)
      (IntOp.cmpi .slt (IntOp.addi (iota .tc S512x512 32 [1] iota_S512x512_d1_w32 (ix2 h w)) 1#32) 512#32) = _
  rw [iota_cols]; rfl

/-- The f32 word of +∞ is the top of the extended reals. -/
theorem inf_word : (FloatOps.ofBits (F := Ideal) .f32 2139095040#32 : EReal) = ⊤ := by
  simp [Ideal.ofBits, Ideal.ieee]

/-! ## The weight, at a pixel -/

/-- The mask picture: the mask block with its two unit axes dropped. -/
abbrev maskPic (x2 : Vec Ideal S1x1x512x512 .i32) : IVec S512x512 32 :=
  shapeCast S512x512 x2 shapeCasts_S1x1x512x512_S512x512

theorem weight_at (x1 : Vec Ideal S1x1x512x512 .f32) (x2 : Vec Ideal S1x1x512x512 .i32) (h w : Fin 512) :
    k0_pay9 (k0_pay6 x2) (k0_pay7 x1) (k0_pay8 x1) (ix2 h w) = wgt (k0_pay5 x1 (ix2 h w)) (maskPic x2 (ix2 h w)) := by
  unfold k0_pay9 k0_pay7 k0_pay8 k0_pay6 wgt
  simp only [← sitofp_widened]
  rfl

/-! ## The tile total -/

/-- The two-stage sum of a picture — every row over its lanes, then the row totals — read at the one entry of the
    1×1 result, is the double sum of the picture's entries. -/
theorem total_congr (src : FVec Ideal S512x512 .f32) (f : Fin 512 → Fin 512 → EReal)
    (hf : ∀ h w : Fin 512, src (ix2 h w) = f h w)
    (r1 : S512x512.Reduces [1] S512) (hφ1 : FKind.Formats .f32) (ha1 : (0x00000000#32 : BitVec 32) = FKind.add.neutral .f32 hφ1)
    (c1 : S512.ShapeCasts S512x1)
    (r2 : S512x1.Reduces [0] S1) (hφ2 : FKind.Formats .f32) (ha2 : (0x00000000#32 : BitVec 32) = FKind.add.neutral .f32 hφ2)
    (c2 : S1.ShapeCasts S1x1) :
    shapeCast S1x1 (multiReduction .add [0] S1 (shapeCast S512x1 (multiReduction .add [1] S512 src 0x00000000#32 r1 hφ1 ha1) c1)
      0x00000000#32 r2 hφ2 ha2) c2 (ix2 (0 : Fin 1) (0 : Fin 1)) = ∑ h : Fin 512, ∑ w : Fin 512, f h w := by
  rw [KeepdimsColumn.shapeCast_a_a1_apply]
  refine (Ideal.multiReduction_add_total _ _ r2 (fun b => by fin_cases b; rfl) hφ2 ha2 _).trans ?_
  rw [sum_idx2]
  refine Finset.sum_congr rfl fun h _ => ?_
  rw [IndexSums.sum_fin_one, KeepdimsColumn.shapeCast_a_a1_apply, RowReduce.laneSum_at]
  exact Finset.sum_congr rfl fun w _ => hf h w

/-- The accumulator after a point, at its one entry: the previous entry plus the sum over the tile of the factored
    pixel loss, the weight taken from the target and mask pictures, the distances from the prediction picture. -/
theorem tileAcc_at (x0 x1 : Vec Ideal S1x1x512x512 .f32) (x2 : Vec Ideal S1x1x512x512 .i32) (prev : Vec Ideal S1x1 .f32) :
    tileAcc x0 x1 x2 prev (ix2 (0 : Fin 1) (0 : Fin 1))
      = prev (ix2 (0 : Fin 1) (0 : Fin 1)) + ∑ h : Fin 512, ∑ w : Fin 512,
          kpix (wgt (k0_pay5 x1 (ix2 h w)) (maskPic x2 (ix2 h w))) (k0_pay5 x1 (ix2 h w)) (k0_pay4 x0) h w := by
  unfold tileAcc k0_pay1 k0_pay18
  dsimp only
  rw [shapeCast_self]
  refine congrArg (fun z => prev (ix2 (0 : Fin 1) (0 : Fin 1)) + z) ?_
  refine total_congr _ _ (fun h w => ?_) _ _ _ _ _ _ _ _
  unfold k0_pay16 k0_pay17 kpix kc Cert.TileLoss.dist
  dsimp only [mulf, minimumf, select, absf, subf, broadcast, andi]
  rw [weight_at, rowMask_neg, rowMask_zero, rowMask_pos, colMask_neg, colMask_zero, colMask_pos, inf_word]
  rw [rot2_apply (1#32) (1#32) (k0_pay4 x0), rot2_apply (1#32) (0#32) (k0_pay4 x0), rot2_apply (1#32) (511#32) (k0_pay4 x0),
    rot2_apply (0#32) (1#32) (k0_pay4 x0), rot2_apply (0#32) (511#32) (k0_pay4 x0), rot2_apply (511#32) (1#32) (k0_pay4 x0),
    rot2_apply (511#32) (0#32) (k0_pay4 x0), rot2_apply (511#32) (511#32) (k0_pay4 x0)]
  rfl

end Cert.KernelIdeal.Pixel

end
-- ==== Proof.KernelValue.lean ====
/-
  The kernel program's result as one sum over all pixels.

  Within a row of the grid the accumulator after point n is the sum of the tile totals of the row's points up to n,
  started from zero; so a row's total is the sum of its eight tile totals, and the program's result is zero plus the
  sum over the sixteen rows of those, divided by the pixel count's word — a sum over rows, points, picture rows and
  lanes of the factored pixel loss. Only the associativity and commutativity of addition on the extended reals is used.
-/
import proofs.«112272_j5188320493678_2_alg».proof.Proof.KernelRun
import proofs.«112272_j5188320493678_2_alg».proof.Proof.KernelPixel

noncomputable section

namespace Cert.KernelIdeal.Value

open Cert.KernelIdeal Cert.KernelIdeal.Gen Cert.KernelIdeal.Pieces Cert.KernelIdeal.Accum Cert.KernelIdeal.Run
open Cert.KernelIdeal.Pixel Cert.TileLoss Cert.Weights
open Idealize.ShloMosaic Idealize.ShloMosaic.TcCoe Idealize.SL.Sem Idealize.ShloMosaic.ValueIdx

variable (m : (ℓ : Loc nD τ sig) → Buf (Elt Ideal) ℓ)

/-- The tile total of point t: the sum over the tile's pixels of the factored pixel loss of the point's blocks. -/
def tileOf (c : Dev nD) (t : Fin cfg0.N) : EReal :=
  ∑ h : Fin 512, ∑ w : Fin 512,
    kpix (wgt (k0_pay5 (iblk m c 1 t) (ix2 h w)) (maskPic (iblk m c 2 t) (ix2 h w))) (k0_pay5 (iblk m c 1 t) (ix2 h w))
      (k0_pay4 (iblk m c 0 t)) h w

/-- The same for any natural number, zero past the grid's end. -/
def tileAt (c : Dev nD) (n : ℕ) : EReal := if h : n < cfg0.N then tileOf m c ⟨n, h⟩ else 0

theorem tileAt_of_lt (c : Dev nD) (n : ℕ) (h : n < cfg0.N) : tileAt m c n = tileOf m c ⟨n, h⟩ := dif_pos h

/-- The zero the accumulator restarts from. -/
theorem zero_at : k0_pay3 (F := Ideal) (ix2 (0 : Fin 1) (0 : Fin 1)) = 0 := by
  show (Ideal.ofBits .f32 0x00000000#32 : EReal) = 0
  exact Ideal.ofBits_zero_f32

/-- One point's step, at the accumulator's entry. -/
theorem accAt_at (c : Dev nD) (t : Fin cfg0.N) (prev : Vec Ideal S1x1 .f32) :
    accAt m c t prev (ix2 (0 : Fin 1) (0 : Fin 1)) = prev (ix2 (0 : Fin 1) (0 : Fin 1)) + tileOf m c t :=
  tileAcc_at _ _ _ prev

/-- The accumulator after point n: the tile totals of its row's points up to n. -/
theorem scratch_val (c : Dev nD) : ∀ (n : ℕ) (h : n < cfg0.N),
    scratchAt m c n h (ix2 (0 : Fin 1) (0 : Fin 1)) = ∑ j ∈ Finset.range (n % 8 + 1), tileAt m c (n - n % 8 + j)
  | 0, h => by
    rw [scratchAt, accAt_at, zero_at, zero_add]
    show _ = ∑ j ∈ Finset.range 1, tileAt m c (0 - 0 % 8 + j)
    rw [Finset.sum_range_one]
    show _ = tileAt m c 0
    rw [tileAt_of_lt m c _ h]
  | n + 1, h => by
    by_cases h0 : (n + 1) % 8 = 0
    · rw [scratchAt_first m c n h h0, accAt_at, zero_at, zero_add, h0]
      show _ = ∑ j ∈ Finset.range 1, tileAt m c (n + 1 - 0 + j)
      rw [Finset.sum_range_one]
      show _ = tileAt m c (n + 1)
      rw [tileAt_of_lt m c _ h]
    · rw [scratchAt_next m c n h h0, accAt_at, scratch_val c n (Nat.lt_of_succ_lt h)]
      have e1 : (n + 1) % 8 + 1 = (n % 8 + 1) + 1 := by omega
      have e2 : n + 1 - (n + 1) % 8 = n - n % 8 := by omega
      have e3 : n - n % 8 + (n % 8 + 1) = n + 1 := by omega
      rw [e1, e2, Finset.sum_range_succ _ (n % 8 + 1), e3, tileAt_of_lt m c _ h]

/-- A row's total: the sum of the tile totals of its eight points. -/
theorem rowTotals_at (c : Dev nD) (b : Fin 16) :
    rowTotals m c (ix3 b (0 : Fin 1) (0 : Fin 1)) = ∑ s : Fin 8, tileAt m c (8 * b.val + s.val) := by
  unfold rowTotals
  rw [scratch_val]
  show ∑ j ∈ Finset.range ((8 * b.val + 7) % 8 + 1), tileAt m c (8 * b.val + 7 - (8 * b.val + 7) % 8 + j) = _
  have e1 : (8 * b.val + 7) % 8 + 1 = 8 := by omega
  have e2 : 8 * b.val + 7 - (8 * b.val + 7) % 8 = 8 * b.val := by omega
  rw [e1, e2, Finset.sum_range]

/-- THE KERNEL PROGRAM'S RESULT: zero plus the sum of all tile totals, divided by the pixel count's word. -/
theorem result_at (c : Dev nD) (i : S_.Idx) :
    result m c i = Ideal.div (Ideal.ofBits .f32 0x00000000#32 + ∑ b : Fin 16, ∑ s : Fin 8, tileAt m c (8 * b.val + s.val))
      (Ideal.ofBits .f32 0x4C000000#32) := by
  unfold result
  show Ideal.div (Host.reduceAdd (F := Ideal) (rowTotals m c) (constant (F := Ideal) S_ .f32 0x00000000#32)
    reducesTo_S16x1x1_S_d0_1_2 h_S_ i) (Ideal.ofBits .f32 0x4C000000#32) = _
  refine congrArg (fun z => Ideal.div z (Ideal.ofBits .f32 0x4C000000#32)) ?_
  simp only [Host.reduceAdd, Ideal.hostReduceAdd_def]
  rw [Ideal.hostReduceAdd_total reducesTo_S16x1x1_S_d0_1_2 (fun b => b.elim0) (rowTotals m c) _ i]
  refine congrArg (fun z => Ideal.ofBits .f32 0x00000000#32 + z) ?_
  rw [IndexSums.sum_idx3]
  refine Finset.sum_congr rfl fun b _ => ?_
  rw [IndexSums.sum_fin_one, IndexSums.sum_fin_one]
  exact rowTotals_at m c b

end Cert.KernelIdeal.Value

end
-- ==== Proof.PaddedSlice.lean ====
/-
  A window of a zero-padded stack of pictures, read at an index.

  A [16, 8, 512, 512] stack padded by one entry on each side of its two picture axes is a [16, 8, 514, 514] stack whose
  entry (b, s, i, j) with 1 ≤ i, j ≤ 512 is the original entry (b, s, i − 1, j − 1). Its 512×512 window at picture offset
  (ox, oy) reads at (b, s, h, w) the padded entry (b, s, h + ox, w + oy); where that lands inside, this is the original
  entry (b, s, h + ox − 1, w + oy − 1): the picture shifted by (ox − 1, oy − 1).
-/
import Idealize.ShloMosaic.Lib.KernelVsHost

namespace Cert.PaddedSlice

open Idealize.ShloMosaic Idealize.ShloMosaic.ValueIdx

/-- The stack of pictures and its padded form. -/
abbrev S4 : Shape := ⟨4, ![16, 8, 512, 512]⟩
abbrev S4p : Shape := ⟨4, ![16, 8, 514, 514]⟩

variable {α : Type}

/-- The window at offset (ox, oy) of the padded stack, read at (b, s, h, w), where the padded position (h + ox, w + oy)
    is position (h' + 1, w' + 1): the original stack at (b, s, h', w'). -/
theorem slice_pad_inside (ox oy : Nat) (x : S4.Idx → α) {u : Shape} (v : u.Idx → α)
    (hp : S4.Pads ![0, 0, 1, 1] ![0, 0, 1, 1] ![0, 0, 0, 0] S4p) (hu : 0 < u.numel)
    (hs : S4p.Slices ![0, 0, ox, oy] S4) (b : Fin 16) (s : Fin 8) (h w h' w' : Fin 512)
    (hh : h.val + ox = h'.val + 1) (hw : w.val + oy = w'.val + 1) :
    extractStridedSlice S4 ![0, 0, ox, oy] (pad S4p ![0, 0, 1, 1] ![0, 0, 1, 1] ![0, 0, 0, 0] x v hp hu) hs (ix4 b s h w)
      = x (ix4 b s h' w') := by
  have hh' : h'.val + 1 < 514 := by have := h'.isLt; omega
  have hw' : w'.val + 1 < 514 := by have := w'.isLt; omega
  refine (extractStridedSlice_apply ![0, 0, ox, oy] _ hs (ix4 b s h w)
    (ix4 b s (⟨h'.val + 1, hh'⟩ : Fin 514) (⟨w'.val + 1, hw'⟩ : Fin 514)) (fun a => ?_)).trans ?_
  · match a with
    | ⟨0, _⟩ => show b.val = 0 + b.val; omega
    | ⟨1, _⟩ => show s.val = 0 + s.val; omega
    | ⟨2, _⟩ => show h'.val + 1 = ox + h.val; omega
    | ⟨3, _⟩ => show w'.val + 1 = oy + w.val; omega
  · refine pad_apply_of_inside ![0, 0, 1, 1] ![0, 0, 1, 1] ![0, 0, 0, 0] x v hp hu _ (ix4 b s h' w') (fun a => ?_)
    match a with
    | ⟨0, _⟩ => show b.val = 0 + b.val * (0 + 1); omega
    | ⟨1, _⟩ => show s.val = 0 + s.val * (0 + 1); omega
    | ⟨2, _⟩ => show h'.val + 1 = 1 + h'.val * (0 + 1); omega
    | ⟨3, _⟩ => show w'.val + 1 = 1 + w'.val * (0 + 1); omega

end Cert.PaddedSlice
-- ==== Proof.RefPixel.lean ====
/-
  The reference program's loss at one pixel, in the distributed form.

  The reference transposes the prediction stack to the target's layout, pads it by one zero entry around each picture,
  and for each of the nine offsets takes the window of the padded stack at that offset; at pixel (b, s, h, w) it forms
  the minimum of |(t − q)·W| over the unshifted entry and then the nine windows' entries, a window's term replaced by
  the +∞ word where its offset position leaves the picture. Stage by stage this is the distributed form of the pixel
  loss, with the +∞ word as the fill; and a window's entry whose position lies inside the picture is the prediction
  stack's entry at the shifted position.
-/
import proofs.«112272_j5188320493678_2_alg».proof.Proof.RefRead
import proofs.«112272_j5188320493678_2_alg».proof.Proof.TileLoss
import proofs.«112272_j5188320493678_2_alg».proof.Proof.PaddedSlice

noncomputable section

namespace Cert.ReferenceIdeal.RefPixel

open Cert.ReferenceIdeal Cert.ReferenceIdeal.Read Cert.Shifts Cert.TileLoss Cert.Weights Cert.PaddedSlice
open Idealize.ShloMosaic Idealize.ShloMosaic.ValueIdx

/-- The nine windows of the padded stack, read at one index: row x, column y is the window at offset (x, y). -/
def around (x0 : (⟨S8x16x512x512, .f32⟩ : BufTy).Contents (Elt Ideal)) (i : S16x8x512x512.Idx) : Fin 3 → Fin 3 → EReal :=
  ![![val_main_v52 (F := Ideal) x0 i, val_main_v72 (F := Ideal) x0 i, val_main_v92 (F := Ideal) x0 i],
    ![val_main_v121 (F := Ideal) x0 i, val_main_v141 (F := Ideal) x0 i, val_main_v161 (F := Ideal) x0 i],
    ![val_main_v190 (F := Ideal) x0 i, val_main_v210 (F := Ideal) x0 i, val_main_v230 (F := Ideal) x0 i]]

/-- THE REFERENCE'S PIXEL: its last minimum, read at (b, s, h, w), is the distributed form of the pixel loss with the
    +∞ word as fill, the weight of the target and mask entries, the unshifted entry of the transposed prediction, and the
    nine windows' entries. Every stage is a pointwise operation, a broadcast or a window, so the two sides unfold to the
    same expression. -/
theorem ref_pixel (x0 : (⟨S8x16x512x512, .f32⟩ : BufTy).Contents (Elt Ideal))
    (x1 : (⟨S16x8x512x512, .f32⟩ : BufTy).Contents (Elt Ideal)) (x2 : (⟨S16x8x512x512, .i32⟩ : BufTy).Contents (Elt Ideal))
    (b : Fin 16) (s : Fin 8) (h w : Fin 512) :
    val_main_v240 (F := Ideal) x0 x1 x2 (ix4 b s h w)
      = rpix (Ideal.ofBits .f32 0x7F800000#32) (wgt (x1 (ix4 b s h w)) (x2 (ix4 b s h w))) (x1 (ix4 b s h w))
          (val_main_v0 (F := Ideal) x0 (ix4 b s h w)) (around x0 (ix4 b s h w)) h w := rfl

/-- The transposed prediction stack at (b, s, h, w) is the prediction stack at (s, b, h, w). -/
theorem transposed_at (x0 : (⟨S8x16x512x512, .f32⟩ : BufTy).Contents (Elt Ideal)) (b : Fin 16) (s : Fin 8) (h w : Fin 512) :
    val_main_v0 (F := Ideal) x0 (ix4 b s h w) = x0 (ix4 s b h w) := by
  rw [val_main_v0_apply]
  exact congrArg x0 (funext fun a => by
    match a with
    | ⟨0, _⟩ => rfl
    | ⟨1, _⟩ => rfl
    | ⟨2, _⟩ => rfl
    | ⟨3, _⟩ => rfl)

/-- A window's entry whose offset position (h + x, w + y) is position (h' + 1, w' + 1) of the padded picture is the
    prediction stack's entry (s, b, h', w'). -/
theorem around_inside (x0 : (⟨S8x16x512x512, .f32⟩ : BufTy).Contents (Elt Ideal)) (b : Fin 16) (s : Fin 8) (h w : Fin 512)
    (ox oy : Fin 3) (h' w' : Fin 512) (hh : h.val + ox.val = h'.val + 1) (hw : w.val + oy.val = w'.val + 1) :
    around x0 (ix4 b s h w) ox oy = x0 (ix4 s b h' w') := by
  fin_cases ox <;> fin_cases oy
  · show val_main_v52 (F := Ideal) x0 (ix4 b s h w) = _
    unfold val_main_v52 val_main_v28
    exact (slice_pad_inside 0 0 _ _ _ _ _ b s h w h' w' hh hw).trans (transposed_at x0 b s h' w')
  · show val_main_v72 (F := Ideal) x0 (ix4 b s h w) = _
    unfold val_main_v72 val_main_v28
    exact (slice_pad_inside 0 1 _ _ _ _ _ b s h w h' w' hh hw).trans (transposed_at x0 b s h' w')
  · show val_main_v92 (F := Ideal) x0 (ix4 b s h w) = _
    unfold val_main_v92 val_main_v28
    exact (slice_pad_inside 0 2 _ _ _ _ _ b s h w h' w' hh hw).trans (transposed_at x0 b s h' w')
  · show val_main_v121 (F := Ideal) x0 (ix4 b s h w) = _
    unfold val_main_v121 val_main_v28
    exact (slice_pad_inside 1 0 _ _ _ _ _ b s h w h' w' hh hw).trans (transposed_at x0 b s h' w')
  · show val_main_v141 (F := Ideal) x0 (ix4 b s h w) = _
    unfold val_main_v141 val_main_v28
    exact (slice_pad_inside 1 1 _ _ _ _ _ b s h w h' w' hh hw).trans (transposed_at x0 b s h' w')
  · show val_main_v161 (F := Ideal) x0 (ix4 b s h w) = _
    unfold val_main_v161 val_main_v28
    exact (slice_pad_inside 1 2 _ _ _ _ _ b s h w h' w' hh hw).trans (transposed_at x0 b s h' w')
  · show val_main_v190 (F := Ideal) x0 (ix4 b s h w) = _
    unfold val_main_v190 val_main_v28
    exact (slice_pad_inside 2 0 _ _ _ _ _ b s h w h' w' hh hw).trans (transposed_at x0 b s h' w')
  · show val_main_v210 (F := Ideal) x0 (ix4 b s h w) = _
    unfold val_main_v210 val_main_v28
    exact (slice_pad_inside 2 1 _ _ _ _ _ b s h w h' w' hh hw).trans (transposed_at x0 b s h' w')
  · show val_main_v230 (F := Ideal) x0 (ix4 b s h w) = _
    unfold val_main_v230 val_main_v28
    exact (slice_pad_inside 2 2 _ _ _ _ _ b s h w h' w' hh hw).trans (transposed_at x0 b s h' w')

end Cert.ReferenceIdeal.RefPixel

end
-- ==== Proof.Bridge.lean ====
/-
  The two programs compute one number.

  At grid point 8·b + s the kernel's three blocks are the pictures (s, b) of the prediction stack and (b, s) of the
  target and mask stacks. At pixel (h, w) of that tile the kernel's factored pixel loss and the reference's distributed
  pixel loss at (b, s, h, w) have the same target entry, the same weight — nonnegative because the mask entry is —,
  the same masks, and, wherever a mask is set, the same prediction entry: the rolled picture's there is the padded
  window's. So the two pixel losses are equal, the kernel's sum over rows, points and tile pixels is the reference's
  sum over all indices, and both divide zero plus that sum by the same word.
-/
import proofs.«112272_j5188320493678_2_alg».proof.Proof.KernelValue
import proofs.«112272_j5188320493678_2_alg».proof.Proof.RefPixel

noncomputable section

namespace Cert.Bridge

open Cert.KernelIdeal Cert.KernelIdeal.Gen Cert.KernelIdeal.Pieces Cert.KernelIdeal.Accum Cert.KernelIdeal.Run
open Cert.KernelIdeal.Pixel Cert.KernelIdeal.Value Cert.TileLoss Cert.Weights Cert.Shifts
open Cert.ReferenceIdeal.Read Cert.ReferenceIdeal.RefPixel
open Idealize.ShloMosaic Idealize.ShloMosaic.TcCoe Idealize.SL.Sem Idealize.ShloMosaic.ValueIdx

variable (m : (ℓ : Loc nD τ sig) → Buf (Elt Ideal) ℓ)

/-! ## One axis of a shift: where the mask is set the rolled coordinate is the window's -/

theorem axis_neg (j : Fin 512) (hok : ok 4294967295#32 j = 1#1) : j.val + (0 : Fin 3).val = (back 1 j).val + 1 := by
  have := back_one_val j ((ok_neg j).1 hok)
  show j.val + 0 = _
  omega

theorem axis_zero (j : Fin 512) : j.val + (1 : Fin 3).val = (back 0 j).val + 1 := by
  rw [back_zero]; rfl

theorem axis_pos (j : Fin 512) (hok : ok 1#32 j = 1#1) : j.val + (2 : Fin 3).val = (back 511 j).val + 1 := by
  have := back_511_val j ((ok_pos j).1 hok)
  show j.val + 2 = _
  omega

/-! ## The kernel's three pictures at point 8·b + s -/

/-- Point 8·b + s of the grid. -/
def pt (b : Fin 16) (s : Fin 8) : Fin cfg0.N := ⟨8 * b.val + s.val, by rw [show cfg0.N = 128 from N_0]; omega⟩

theorem pt_mod (b : Fin 16) (s : Fin 8) : s.val = (pt b s).val % 8 := by show s.val = (8 * b.val + s.val) % 8; omega
theorem pt_div (b : Fin 16) (s : Fin 8) : b.val = (pt b s).val / 8 := by show b.val = (8 * b.val + s.val) / 8; omega

theorem pred_at (c : Dev nD) (b : Fin 16) (s : Fin 8) (h w : Fin 512) :
    k0_pay4 (iblk m c 0 (pt b s)) (ix2 h w) = m ((c : Thread nD τ).loc main_arg0) (ix4 s b h w) := by
  unfold k0_pay4
  refine (Cert.LibLeadingUnits.shapeCast_11ab_ab_apply _ _ (0 : Fin 1) (0 : Fin 1) h w).trans ?_
  exact blk0_apply m c (pt b s) s b (pt_mod b s) (pt_div b s) h w

theorem target_at (c : Dev nD) (b : Fin 16) (s : Fin 8) (h w : Fin 512) :
    k0_pay5 (iblk m c 1 (pt b s)) (ix2 h w) = m ((c : Thread nD τ).loc main_arg1) (ix4 b s h w) := by
  unfold k0_pay5
  refine (Cert.LibLeadingUnits.shapeCast_11ab_ab_apply _ _ (0 : Fin 1) (0 : Fin 1) h w).trans ?_
  exact blk1_apply m c (pt b s) s b (pt_mod b s) (pt_div b s) h w

theorem mask_at (c : Dev nD) (b : Fin 16) (s : Fin 8) (h w : Fin 512) :
    maskPic (iblk m c 2 (pt b s)) (ix2 h w) = m ((c : Thread nD τ).loc main_arg2) (ix4 b s h w) := by
  refine (Cert.LibLeadingUnits.shapeCast_11ab_ab_apply _ _ (0 : Fin 1) (0 : Fin 1) h w).trans ?_
  exact blk2_apply m c (pt b s) s b (pt_mod b s) (pt_div b s) h w

/-- The f32 word of +∞ is the top of the extended reals. -/
theorem inf_word : Ideal.ofBits .f32 0x7F800000#32 = (⊤ : EReal) := by
  simp [Ideal.ofBits, Ideal.ieee]

/-! ## The pixel losses agree -/

/-- At pixel (h, w) of the tile of point 8·b + s the kernel's pixel loss is the reference's at (b, s, h, w), the mask
    entry there being nonnegative. -/
theorem pixel_eq (c : Dev nD) (b : Fin 16) (s : Fin 8) (h w : Fin 512)
    (hM : 0 ≤ (m ((c : Thread nD τ).loc main_arg2) (ix4 b s h w)).toInt) :
    kpix (wgt (k0_pay5 (iblk m c 1 (pt b s)) (ix2 h w)) (maskPic (iblk m c 2 (pt b s)) (ix2 h w)))
        (k0_pay5 (iblk m c 1 (pt b s)) (ix2 h w)) (k0_pay4 (iblk m c 0 (pt b s))) h w
      = val_main_v240 (F := Ideal) (m ((c : Thread nD τ).loc main_arg0)) (m ((c : Thread nD τ).loc main_arg1))
          (m ((c : Thread nD τ).loc main_arg2)) (ix4 b s h w) := by
  rw [ref_pixel, inf_word, target_at, mask_at]
  refine kpix_eq_rpix _ _ _ (wgt_nonneg _ _ hM) _ _ h w ?_ ?_ ?_ ?_ ?_ ?_ ?_ ?_ ?_ ?_
  · rw [pred_at, transposed_at]
  · rw [transposed_at]; exact around_inside _ b s h w 1 1 h w rfl rfl
  · intro hc; obtain ⟨hx, hy⟩ := (andi_eq_one _ _).1 hc
    rw [pred_at]; exact (around_inside _ b s h w 0 0 _ _ (axis_neg h hx) (axis_neg w hy)).symm
  · intro hc; obtain ⟨hx, hy⟩ := (andi_eq_one _ _).1 hc
    rw [pred_at]; exact (around_inside _ b s h w 0 1 _ _ (axis_neg h hx) (axis_zero w)).symm
  · intro hc; obtain ⟨hx, hy⟩ := (andi_eq_one _ _).1 hc
    rw [pred_at]; exact (around_inside _ b s h w 0 2 _ _ (axis_neg h hx) (axis_pos w hy)).symm
  · intro hc; obtain ⟨hx, hy⟩ := (andi_eq_one _ _).1 hc
    rw [pred_at]; exact (around_inside _ b s h w 1 0 _ _ (axis_zero h) (axis_neg w hy)).symm
  · intro hc; obtain ⟨hx, hy⟩ := (andi_eq_one _ _).1 hc
    rw [pred_at]; exact (around_inside _ b s h w 1 2 _ _ (axis_zero h) (axis_pos w hy)).symm
  · intro hc; obtain ⟨hx, hy⟩ := (andi_eq_one _ _).1 hc
    rw [pred_at]; exact (around_inside _ b s h w 2 0 _ _ (axis_pos h hx) (axis_neg w hy)).symm
  · intro hc; obtain ⟨hx, hy⟩ := (andi_eq_one _ _).1 hc
    rw [pred_at]; exact (around_inside _ b s h w 2 1 _ _ (axis_pos h hx) (axis_zero w)).symm
  · intro hc; obtain ⟨hx, hy⟩ := (andi_eq_one _ _).1 hc
    rw [pred_at]; exact (around_inside _ b s h w 2 2 _ _ (axis_pos h hx) (axis_pos w hy)).symm

/-! ## The results agree -/

/-- THE BRIDGE: with every mask entry nonnegative, the kernel program's result is the reference's last stage of the
    same three argument arrays. -/
theorem result_eq (c : Dev nD) (hM : ∀ i, 0 ≤ (m ((c : Thread nD τ).loc main_arg2) i).toInt) :
    result m c = val_main_v242 (F := Ideal) (m ((c : Thread nD τ).loc main_arg0)) (m ((c : Thread nD τ).loc main_arg1))
      (m ((c : Thread nD τ).loc main_arg2)) := by
  funext i
  rw [result_at, val_main_v242_apply, val_main_v241_apply]
  show _ = Ideal.div (Ideal.ofBits .f32 0x00000000#32 + ∑ j, val_main_v240 (F := Ideal) _ _ _ j) (Ideal.ofBits .f32 0x4C000000#32)
  refine congrArg (fun z => Ideal.div (Ideal.ofBits .f32 0x00000000#32 + z) (Ideal.ofBits .f32 0x4C000000#32)) ?_
  rw [IndexSums.sum_idx4]
  refine Finset.sum_congr rfl fun b _ => Finset.sum_congr rfl fun s _ => ?_
  rw [show 8 * b.val + s.val = (pt b s).val from rfl, tileAt_of_lt m c _ (pt b s).isLt]
  unfold tileOf
  exact Finset.sum_congr rfl fun h _ => Finset.sum_congr rfl fun w _ => pixel_eq m c b s h w (hM _)

end Cert.Bridge

end
-- ==== Proof.MaskDomain.lean ====
/-
  What the precondition says about the mask: every mask word is a nonnegative integer.

  The precondition is a conjunction of three "all entries satisfy …" tests; the third says that every entry k of the
  mask satisfies 0 ≤ k and k ≤ 1 as signed 32-bit integers. A conjunction bit that is set has both its bits set, an
  "all" that is set holds at every index, and the signed comparison 0 ≤ k of words is the comparison of the integers
  they denote. Only the lower bound is used afterwards.
-/
import proofs.«112272_j5188320493678_2_alg».proof.Pre_finite_inputs
import Idealize.ShloMosaic.PureOps.Ideal
import Idealize.ShloMosaic.Lib.ReduceAll

noncomputable section

namespace Cert.MaskDomain

open Idealize.ShloMosaic Cert.Pre_finite_inputs

theorem ofBool_eq_one (b : Bool) : BitVec.ofBool b = 1#1 ↔ b = true := by cases b <;> decide

theorem and_bits : ∀ a b : BitVec 1, IntOp.andi a b = 1#1 ↔ a = 1#1 ∧ b = 1#1 := by decide

/-- A word that passes the signed test 0 ≤ w denotes a nonnegative integer. -/
theorem toInt_nonneg_of_sge (w : BitVec 32) (h0 : IntOp.cmpi .sge w 0#32 = 1#1) : 0 ≤ w.toInt := by
  unfold IntOp.cmpi at h0
  rw [ofBool_eq_one] at h0
  simp only [BitVec.sle, decide_eq_true_eq] at h0
  simpa using h0

instance : Subsingleton S_.Idx := ⟨fun a b => funext fun d => d.elim0⟩

/-- Under the precondition every mask word denotes a nonnegative integer. -/
theorem mask_nonneg [Facts] (P : FVec Ideal S8x16x512x512 .f32) (T : FVec Ideal S16x8x512x512 .f32)
    (M : IVec S16x8x512x512 32) (h : fn (F := Ideal) P T M = fun _ => 1#1) (i : S16x8x512x512.Idx) :
    0 ≤ (M i).toInt := by
  have e := congrFun h (fun a => a.elim0)
  dsimp only [fn] at e
  have e2 := ((and_bits _ _).1 e).2
  have e3 := Host.reduce_andi_all _ _ _ _ _ e2 i
  have e4 := ((and_bits _ _).1 e3).1
  exact toInt_nonneg_of_sge _ e4

end Cert.MaskDomain

end
-- ==== Proof.lean ====
/-
  The weighted neighbourhood loss of a stack of 16 × 8 pictures of 512 × 512 pixels, computed two ways.

  Both programs return the mean over all pixels of a pixel loss: the smallest weighted distance |t − p| · W between the
  target value t and the prediction p over the 3 × 3 neighbourhood of the pixel, a neighbour outside the picture
  counting as +∞, the weight W = (1 + [t ≥ 2] + 3·[t ≥ 5] + 5·[t ≥ 10] + 20·[t ≥ 30]) · mask.

  The kernel visits the pictures one per grid point (16 rows of 8 points), shifts the prediction picture by rolling
  it, takes the minimum of the bare distances and multiplies by the weight once, sums the tile, accumulates the eight
  tile totals of a row of the grid in a scratch word, writes each row's total out, and the host adds the sixteen totals
  and divides by the pixel count. The reference shifts by windows of the zero-padded stack, multiplies the weight into
  every distance before the minimum, and takes the mean of the whole stack.

  The two agree on the extended reals whenever the mask entries are nonnegative integers (the precondition says they
  are 0 or 1): then the weight is nonnegative, multiplication by it commutes with the absolute value and with each step
  of the running minimum, a masked-out neighbour is +∞ on both sides, a rolled entry is the window's entry wherever
  the mask is set, and sums on the extended reals may be regrouped freely. The float inputs' finiteness is not needed.
  (With a negative mask entry the claim fails: the kernel's pixel loss is then negative, the reference's positive.)

  The three frames are the generated ones (the reference's is its run with the result dropped); the ideal pass rewrote
  nothing, so the kernel's idealization is the program itself.
-/
import proofs.«112272_j5188320493678_2_alg».proof.Defs
import proofs.«112272_j5188320493678_2_alg».proof.Proof.Gen.Kernel
import proofs.«112272_j5188320493678_2_alg».proof.Proof.Gen.Kernel.Frame
import proofs.«112272_j5188320493678_2_alg».proof.Proof.Gen.KernelIdeal
import proofs.«112272_j5188320493678_2_alg».proof.Proof.Gen.KernelIdeal.Frame
import proofs.«112272_j5188320493678_2_alg».proof.Proof.Gen.ReferenceIdeal
import proofs.«112272_j5188320493678_2_alg».proof.Proof.Gen.Pre_finite_inputs
import proofs.«112272_j5188320493678_2_alg».proof.Proof.Bridge
import proofs.«112272_j5188320493678_2_alg».proof.Proof.MaskDomain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the three arguments, under the precondition, the kernel program ends with its result
    at zero plus the sum of all tile totals over the pixel count, the reference with its mean of the pixel losses: one
    extended real, because every mask entry is nonnegative. -/
theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v242_eq, (hagree c).1, (hagree c).2.1, (hagree c).2.2]
  exact (Cert.Bridge.result_eq m c (fun i => Cert.MaskDomain.mask_nonneg _ _ _ (hpre c) i)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
